-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S64x128 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S64x128 .f32) (main_arg6 : FVec F S64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x64 : Shape := ⟨2, ![1, 64]⟩
abbrev S10000x128 : Shape := ⟨2, ![10000, 128]⟩
abbrev S1700000x128 : Shape := ⟨2, ![1700000, 128]⟩
abbrev S128x64 : Shape := ⟨2, ![128, 64]⟩
abbrev S100000x64 : Shape := ⟨2, ![100000, 64]⟩
abbrev S10000x64 : Shape := ⟨2, ![10000, 64]⟩
abbrev S1700000x64 : Shape := ⟨2, ![1700000, 64]⟩

abbrev nBuf : Space → Nat
  | .hbm => 108
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x64, .f32⟩
  | .hbm, ⟨53, _⟩ => ⟨S128x128, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S128x64, .f32⟩
  | .hbm, ⟨90, _⟩ => ⟨S100000x64, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x1, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S128x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S128x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1x128 : S_.BroadcastsInDim S1x128 (![] : Fin 0 → Fin S1x128.rank)
  shapeCasts_S128_S1x128 : S128.ShapeCasts S1x128
  shapeCasts_S64_S1x64 : S64.ShapeCasts S1x64
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S128x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S128x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S128x64, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  Every weakly fair execution of the program — three host stretches, then four kernel launches with a host stretch
  between consecutive ones — terminates without a fault, and in its final state every buffer that lives for the whole
  program holds the contents the last boundary's fold gives it: the arguments what they were launched with, and the
  result buffer what the last launch's write-backs left in it.  The frame claim keeps the arguments of this post; here
  the result buffer is kept too.
-/
import proofs.«173080_j44813688767186_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.DenseLayers.lean ====
/-
  The dense maps of a graph-convolution network, entry by entry on the extended reals.

  The dense part of a layer sends an array `A` of `n` rows and 128 columns, a bias row `b` and a weight matrix `W`
  to the array whose entry `(p, q)` is
      ∑ₖ (A(p,k) + b(0,k)) · W(k,q),          or, with the rectifier after the bias,   ∑ₖ max (A(p,k) + b(0,k)) 0 · W(k,q);
  the last layer only adds its bias row: `A(p,q) + b(0,q)`.

  Three facts about these maps.  Entry `(p, q)` reads ONE row of `A`, so the map of a tile of rows is the tile of the
  map.  A matrix unit fed the biased (and rectified) rows and the weights, both narrowed to a shorter float format —
  which changes nothing on the extended reals —, into a zero accumulator computes exactly these sums.  And adding a zero
  bias row changes nothing: `a + 0 = a` for every extended real, infinite ones included.
-/
import proofs.«173080_j44813688767186_1_alg».proof.Proof.LibLayerLaws
import Idealize.ShloMosaic.Lib.Pipeline.Value

noncomputable section

open scoped BigOperators

namespace Cert.Gcn

open Idealize.ShloMosaic Idealize.ShloMosaic.ValueIdx Cert.LayerLaws

variable {n N d : ℕ}

/-! ## The maps -/

/-- Bias row added, then the product with the weights: `∑ₖ (A(p,k) + b(0,k)) · W(k,q)`. -/
def affine (A : Mat n 128) (b : Mat 1 128) (W : Mat 128 d) : Mat n d :=
  fun i => ∑ k : Fin 128, (A (ix2 (⟨(i 0).val, idx2_lt0 i⟩ : Fin n) k) + b (ix2 (0 : Fin 1) k))
    * W (ix2 k (⟨(i 1).val, idx2_lt1 i⟩ : Fin d))

theorem affine_apply (A : Mat n 128) (b : Mat 1 128) (W : Mat 128 d) (p : Fin n) (q : Fin d) :
    affine A b W (ix2 p q) = ∑ k : Fin 128, (A (ix2 p k) + b (ix2 (0 : Fin 1) k)) * W (ix2 k q) := rfl

/-- Bias row added, the rectifier, then the product with the weights: `∑ₖ max (A(p,k) + b(0,k)) 0 · W(k,q)`. -/
def affineRelu (A : Mat n 128) (b : Mat 1 128) (W : Mat 128 d) : Mat n d :=
  fun i => ∑ k : Fin 128, max (A (ix2 (⟨(i 0).val, idx2_lt0 i⟩ : Fin n) k) + b (ix2 (0 : Fin 1) k)) 0
    * W (ix2 k (⟨(i 1).val, idx2_lt1 i⟩ : Fin d))

theorem affineRelu_apply (A : Mat n 128) (b : Mat 1 128) (W : Mat 128 d) (p : Fin n) (q : Fin d) :
    affineRelu A b W (ix2 p q) = ∑ k : Fin 128, max (A (ix2 p k) + b (ix2 (0 : Fin 1) k)) 0 * W (ix2 k q) := rfl

/-- The last layer's bias: `A(p,q) + b(0,q)`. -/
def addRow (A : Mat n 64) (b : Mat 1 64) : Mat n 64 :=
  fun i => A i + b (ix2 (0 : Fin 1) (⟨(i 1).val, idx2_lt1 i⟩ : Fin 64))

theorem addRow_apply (A : Mat n 64) (b : Mat 1 64) (p : Fin n) (q : Fin 64) :
    addRow A b (ix2 p q) = A (ix2 p q) + b (ix2 (0 : Fin 1) q) := rfl

/-! ## A tile of rows -/

/-- The affine map of a tile of rows is the tile of the affine map. -/
theorem affine_rows (e : Fin n → Fin N) (a : Mat n 128) (A : Mat N 128) (b : Mat 1 128) (W : Mat 128 d)
    (h : ∀ r k, a (ix2 r k) = A (ix2 (e r) k)) (r : Fin n) (q : Fin d) :
    affine a b W (ix2 r q) = affine A b W (ix2 (e r) q) := by
  rw [affine_apply, affine_apply]
  exact Finset.sum_congr rfl fun k _ => by rw [h r k]

/-- The rectified affine map of a tile of rows is the tile of the rectified affine map. -/
theorem affineRelu_rows (e : Fin n → Fin N) (a : Mat n 128) (A : Mat N 128) (b : Mat 1 128) (W : Mat 128 d)
    (h : ∀ r k, a (ix2 r k) = A (ix2 (e r) k)) (r : Fin n) (q : Fin d) :
    affineRelu a b W (ix2 r q) = affineRelu A b W (ix2 (e r) q) := by
  rw [affineRelu_apply, affineRelu_apply]
  exact Finset.sum_congr rfl fun k _ => by rw [h r k]

/-- The bias of a tile of rows is the tile of the bias. -/
theorem addRow_rows (e : Fin n → Fin N) (a : Mat n 64) (A : Mat N 64) (b : Mat 1 64)
    (h : ∀ r k, a (ix2 r k) = A (ix2 (e r) k)) (r : Fin n) (q : Fin 64) :
    addRow a b (ix2 r q) = addRow A b (ix2 (e r) q) := by
  rw [addRow_apply, addRow_apply, h r q]

/-! ## A zero bias row -/

/-- With a bias row of zeros the affine map is the plain product. -/
theorem affine_zero_row (A : Mat n 128) (b : Mat 1 128) (W : Mat 128 d) (hb : ∀ k, b (ix2 (0 : Fin 1) k) = 0)
    (p : Fin n) (q : Fin d) :
    affine A b W (ix2 p q) = ∑ k : Fin 128, A (ix2 p k) * W (ix2 k q) := by
  rw [affine_apply]
  exact Finset.sum_congr rfl fun k _ => by rw [hb k, add_zero]

/-! ## The bias row spread over the rows of a tile -/

/-- A row `[1, 128]` broadcast to `[n, 128]` holds at `(p, k)` the row's entry `k`. -/
theorem row128_apply (b : FVec Ideal ⟨2, ![1, 128]⟩ .f32) (hb : (⟨2, ![1, 128]⟩ : Shape).Broadcasts ⟨2, ![n, 128]⟩)
    (p : Fin n) (k : Fin 128) : broadcastTo ⟨2, ![n, 128]⟩ b hb (ix2 p k) = b (ix2 (0 : Fin 1) k) :=
  broadcastTo_apply b hb (ix2 p k) (ix2 (0 : Fin 1) k) (fun a => by
    match a with
    | ⟨0, _⟩ => rfl
    | ⟨1, _⟩ => rfl)

/-- A row `[1, 64]` broadcast to `[n, 64]` holds at `(p, k)` the row's entry `k`. -/
theorem row64_apply (b : FVec Ideal ⟨2, ![1, 64]⟩ .f32) (hb : (⟨2, ![1, 64]⟩ : Shape).Broadcasts ⟨2, ![n, 64]⟩)
    (p : Fin n) (k : Fin 64) : broadcastTo ⟨2, ![n, 64]⟩ b hb (ix2 p k) = b (ix2 (0 : Fin 1) k) :=
  broadcastTo_apply b hb (ix2 p k) (ix2 (0 : Fin 1) k) (fun a => by
    match a with
    | ⟨0, _⟩ => rfl
    | ⟨1, _⟩ => rfl)

/-! ## The matrix unit on a tile -/

/-- The matrix unit fed the biased rows and the weights, both narrowed, into a zero accumulator, is the affine map. -/
theorem unit_affine (D : DotDims ⟨2, ![n, 128]⟩ ⟨2, ![128, d]⟩ ⟨2, ![n, d]⟩) (prec : Option ContractPrecision)
    (hr : D.contr.rank = 1) (hs : D.contr.size ⟨0, by omega⟩ = 128)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![n, 128]⟩ .f32) (b : FVec Ideal ⟨2, ![1, 128]⟩ .f32) (W : FVec Ideal ⟨2, ![128, d]⟩ .f32)
    (hb : (⟨2, ![1, 128]⟩ : Shape).Broadcasts ⟨2, ![n, 128]⟩) (hlt : FTy.bf16.bits < FTy.f32.bits)
    (j : (⟨2, ![n, d]⟩ : Shape).Idx) :
    matmul D prec (truncf .bf16 (addf x (broadcastTo ⟨2, ![n, 128]⟩ b hb)) hlt) (truncf .bf16 W hlt)
        (constant (F := Ideal) ⟨2, ![n, d]⟩ .f32 0x00000000#32) j
      = affine x b W j := by
  obtain ⟨p, q, rfl⟩ : ∃ (p : Fin n) (q : Fin d), j = ix2 p q := ⟨j 0, j 1, eq_ix2 j⟩
  refine (Ideal.matmul_constant_zero_apply D prec _ _ (ix2 p q)).trans ?_
  refine (sum_inner D hr hs hl0 hl1 hr0 hr1 _ _ p q).trans ?_
  rw [affine_apply]
  refine Finset.sum_congr rfl fun k _ => ?_
  rw [truncf_apply, truncf_apply, addf_apply, row128_apply]

/-- The same with the rectifier between the bias and the narrowing. -/
theorem unit_affineRelu (D : DotDims ⟨2, ![n, 128]⟩ ⟨2, ![128, d]⟩ ⟨2, ![n, d]⟩) (prec : Option ContractPrecision)
    (hr : D.contr.rank = 1) (hs : D.contr.size ⟨0, by omega⟩ = 128)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![n, 128]⟩ .f32) (b : FVec Ideal ⟨2, ![1, 128]⟩ .f32) (W : FVec Ideal ⟨2, ![128, d]⟩ .f32)
    (hb : (⟨2, ![1, 128]⟩ : Shape).Broadcasts ⟨2, ![n, 128]⟩) (hlt : FTy.bf16.bits < FTy.f32.bits)
    (j : (⟨2, ![n, d]⟩ : Shape).Idx) :
    matmul D prec (truncf .bf16 (maximumf (addf x (broadcastTo ⟨2, ![n, 128]⟩ b hb))
          (broadcast ⟨2, ![n, 128]⟩ (Scalar.ofBits (F := Ideal) .f32 0x00000000#32))) hlt) (truncf .bf16 W hlt)
        (constant (F := Ideal) ⟨2, ![n, d]⟩ .f32 0x00000000#32) j
      = affineRelu x b W j := by
  obtain ⟨p, q, rfl⟩ : ∃ (p : Fin n) (q : Fin d), j = ix2 p q := ⟨j 0, j 1, eq_ix2 j⟩
  refine (Ideal.matmul_constant_zero_apply D prec _ _ (ix2 p q)).trans ?_
  refine (sum_inner D hr hs hl0 hl1 hr0 hr1 _ _ p q).trans ?_
  rw [affineRelu_apply]
  refine Finset.sum_congr rfl fun k _ => ?_
  rw [truncf_apply, truncf_apply, maximumf_apply, addf_apply, row128_apply, broadcast_apply]
  show max _ (Ideal.ofBits .f32 0x00000000#32) * _ = _
  rw [Ideal.ofBits_zero_f32]

end Cert.Gcn

end
-- ==== Proof.KernelLayers.lean ====
/-
  What each of the four kernel launches leaves in its output array, on the extended reals.

  A launch walks ten tiles of 10000 rows.  At tile `t` the body loads rows `10000·t … 10000·t + 9999` of its input
  array, the whole bias row and the whole weight matrix, and stores one tile of the output.  Its arithmetic is the dense
  map of DenseLayers (bias row added, in launches 1 and 2 rectified, narrowed to a shorter float format — the identity on
  the extended reals —, multiplied with the weights into a zero accumulator; launch 3 only adds the bias row).  Since an
  entry of a dense map reads one row of the input, tile `t` of the map of the whole arrays is the map of tile `t`; the
  ten tiles cover the output array; so after the launch the output array IS the dense map of the arrays the launch found.
  All of it for arbitrary contents `V` of the buffers at the launch.
-/
import proofs.«173080_j44813688767186_1_alg».proof.Proof.Gen.KernelIdeal.Frame
import proofs.«173080_j44813688767186_1_alg».proof.Proof.DenseLayers

set_option maxRecDepth 16384

noncomputable section

namespace Cert.KernelIdeal.Layers

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The matrix units' operand indices -/

/-- The left operand's row coordinate is the entry's row. -/
theorem dA_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contracted one. -/
theorem dA_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contracted one. -/
theorem dA_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the entry's column. -/
theorem dA_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The left operand's row coordinate is the entry's row. -/
theorem dB_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column coordinate is the contracted one. -/
theorem dB_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the contracted one. -/
theorem dB_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate is the entry's column. -/
theorem dB_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The bodies' arithmetic -/

theorem hz : (![0, 0] : Fin 2 → Nat) = fun _ => 0 := funext fun a => by fin_cases a <;> rfl

/-- Launch 0's body: bias row added, times the weights. -/
theorem pay0 (x0 : Vec Ideal S10000x128 .f32) (x1 : Vec Ideal S1x128 .f32) (x2 : Vec Ideal S128x128 .f32) :
    k0_pay1 (F := Ideal) x0 x1 x2 = Gcn.affine x0 x1 x2 := by
  funext j
  unfold k0_pay1
  simp only [shapeCast_self]
  exact Gcn.unit_affine dot_S10000x128_S128x128_S10000x128_1_0_0_1_n_n none rfl rfl dA_l0 dA_l1 dA_r0 dA_r1 x0 x1 x2 _ _ j

/-- Launch 1's body: bias row added, rectified, times the weights. -/
theorem pay1 (x0 : Vec Ideal S10000x128 .f32) (x1 : Vec Ideal S1x128 .f32) (x2 : Vec Ideal S128x128 .f32) :
    k1_pay1 (F := Ideal) x0 x1 x2 = Gcn.affineRelu x0 x1 x2 := by
  funext j
  unfold k1_pay1
  simp only [shapeCast_self]
  exact Gcn.unit_affineRelu dot_S10000x128_S128x128_S10000x128_1_0_0_1_n_n none rfl rfl dA_l0 dA_l1 dA_r0 dA_r1 x0 x1 x2 _ _ j

/-- Launch 2's body: the same into 64 columns. -/
theorem pay2 (x0 : Vec Ideal S10000x128 .f32) (x1 : Vec Ideal S1x128 .f32) (x2 : Vec Ideal S128x64 .f32) :
    k2_pay1 (F := Ideal) x0 x1 x2 = Gcn.affineRelu x0 x1 x2 := by
  funext j
  unfold k2_pay1
  simp only [shapeCast_self]
  exact Gcn.unit_affineRelu dot_S10000x128_S128x64_S10000x64_1_0_0_1_n_n none rfl rfl dB_l0 dB_l1 dB_r0 dB_r1 x0 x1 x2 _ _ j

/-- Launch 3's body: the bias row added to every row. -/
theorem pay3 (x0 : Vec Ideal S10000x64 .f32) (x1 : Vec Ideal S1x64 .f32) :
    k3_pay1 (F := Ideal) x0 x1 = Gcn.addRow x0 x1 := by
  funext j
  obtain ⟨p, q, rfl⟩ : ∃ (p : Fin 10000) (q : Fin 64), j = ix2 p q := ⟨j 0, j 1, eq_ix2 j⟩
  unfold k3_pay1
  simp only [shapeCast_self]
  rw [addf_apply, Gcn.row64_apply, Gcn.addRow_apply]

variable (V : (c : Dev nD) → (b : Ref sig .tc) → Buf (Elt Ideal) ((c : Thread nD τ).loc b))

/-! ## Region 0: rows plus a bias row, times the weights -/

/-- The printed block index maps over the grid: the row tiles of the input and of the output move together, point `t`
    at tile `t`; the bias row and the weights are one block each. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row tile of the output is some point's. -/
theorem onto0 : ∀ q0 : Fin 10, ∃ t : Fin cfg0.N, win0_3.index t = ![q0.val, 0] :=
  (by decide +kernel : ∀ q0 : Fin 10, ∃ t : Fin grid0.N, win0_3.index t = ![q0.val, 0])

/-- What point `t` writes back is tile `t` of the dense map of the arrays as the region finds them. -/
theorem flushed0 (c : Dev nD) (t : Fin cfg0.N) :
    (dat0 V c).flushed 3 t = ((cfg0.win 3).blk t).view.read (Elt Ideal)
      (Gcn.affine (V c main_arg0) (V c main_v30) (V c main_v34)) := by
  show (cfg0.win 3).cut (grid0.coords t) ((dat0 V c).after 3 t) = _
  rw [after0_3]
  unfold out0_3
  rw [View.canon_unit_zero hz]
  simp only [View.ld_unit_zero (S := S10000x128) hz, View.ld_unit_zero (S := S1x128) hz, View.ld_unit_zero (S := S128x128) hz]
  rw [pay0]
  obtain ⟨e0, e1, e2, e3, e4, e5, e6⟩ := idx0 t
  funext j
  show Gcn.affine (iblk0 V c 0 t) (iblk0 V c 1 t) (iblk0 V c 2 t) j
      = Gcn.affine (V c main_arg0) (V c main_v30) (V c main_v34) (((cfg0.win 3).blk t).view.emb j)
  have hj0 : (j 0).val < 10000 := (j 0).isLt
  have hj1 : (j 1).val < 128 := (j 1).isLt
  unfold Gcn.affine
  refine Finset.sum_congr rfl fun k _ => ?_
  have hk : k.val < 128 := k.isLt
  refine congrArg₂ (· * ·) (congrArg₂ (· + ·) ?_ ?_) ?_
  · show V c main_arg0 (((cfg0.win 0).blk t).view.emb (ix2 ⟨(j 0).val, _⟩ k))
        = V c main_arg0 (ix2 ⟨((((cfg0.win 3).blk t).view.emb j) 0).val, _⟩ k)
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · show V c main_v30 (((cfg0.win 1).blk t).view.emb (ix2 (0 : Fin 1) k)) = V c main_v30 (ix2 (0 : Fin 1) k)
    refine congrArg (V c main_v30) (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  · show V c main_v34 (((cfg0.win 2).blk t).view.emb (ix2 k ⟨(j 1).val, _⟩))
        = V c main_v34 (ix2 k ⟨((((cfg0.win 3).blk t).view.emb j) 1).val, _⟩)
    refine congrArg (V c main_v34) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_3.index t (1 : Fin 2) * 128 + 1 * (j 1).val; omega

/-- An index of the output array is in point `t`'s tile iff each coordinate is in the tile's range on its axis. -/
theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v35).slice (win0_3.rect t)).set ↔ _
  rw [View.set_slice_whole, Rect.mem_set_unit]
  exact Iff.rfl

/-- The ten row tiles cover the output array: row `p` is in tile `p / 10000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After region 0 its output array holds the dense map of the arrays the region found. -/
theorem final0 (c : Dev nD) :
    (dat0 V c).arrAt 3 cfg0.N = Gcn.affine (V c main_arg0) (V c main_v30) (V c main_v34) :=
  (dat0 V c).arrAt_eq_of_cover 3 _ (fun t _ => flushed0 V c t) (cover0)

/-! ## Region 1: rows plus a bias row, rectified, times the weights -/

/-- The printed block index maps over the grid: the row tiles of the input and of the output move together, point `t`
    at tile `t`; the bias row and the weights are one block each. -/
theorem idx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every row tile of the output is some point's. -/
theorem onto1 : ∀ q0 : Fin 10, ∃ t : Fin cfg1.N, win1_3.index t = ![q0.val, 0] :=
  (by decide +kernel : ∀ q0 : Fin 10, ∃ t : Fin grid1.N, win1_3.index t = ![q0.val, 0])

/-- What point `t` writes back is tile `t` of the dense map of the arrays as the region finds them. -/
theorem flushed1 (c : Dev nD) (t : Fin cfg1.N) :
    (dat1 V c).flushed 3 t = ((cfg1.win 3).blk t).view.read (Elt Ideal)
      (Gcn.affineRelu (V c main_v48) (V c main_v31) (V c main_v49)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  rw [pay1]
  obtain ⟨e0, e1, e2, e3, e4, e5, e6⟩ := idx1 t
  funext j
  show Gcn.affineRelu (iblk1 V c 0 t) (iblk1 V c 1 t) (iblk1 V c 2 t) j
      = Gcn.affineRelu (V c main_v48) (V c main_v31) (V c main_v49) (((cfg1.win 3).blk t).view.emb j)
  have hj0 : (j 0).val < 10000 := (j 0).isLt
  have hj1 : (j 1).val < 128 := (j 1).isLt
  unfold Gcn.affineRelu
  refine Finset.sum_congr rfl fun k _ => ?_
  have hk : k.val < 128 := k.isLt
  refine congrArg₂ (· * ·) (congrArg (max · 0) (congrArg₂ (· + ·) ?_ ?_)) ?_
  · show V c main_v48 (((cfg1.win 0).blk t).view.emb (ix2 ⟨(j 0).val, _⟩ k))
        = V c main_v48 (ix2 ⟨((((cfg1.win 3).blk t).view.emb j) 0).val, _⟩ k)
    refine congrArg (V c main_v48) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  · show V c main_v31 (((cfg1.win 1).blk t).view.emb (ix2 (0 : Fin 1) k)) = V c main_v31 (ix2 (0 : Fin 1) k)
    refine congrArg (V c main_v31) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_v49 (((cfg1.win 2).blk t).view.emb (ix2 k ⟨(j 1).val, _⟩))
        = V c main_v49 (ix2 k ⟨((((cfg1.win 3).blk t).view.emb j) 1).val, _⟩)
    refine congrArg (V c main_v49) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega

/-- An index of the output array is in point `t`'s tile iff each coordinate is in the tile's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v50).slice (win1_3.rect t)).set ↔ _
  rw [View.set_slice_whole, Rect.mem_set_unit]
  exact Iff.rfl

/-- The ten row tiles cover the output array: row `p` is in tile `p / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After region 1 its output array holds the dense map of the arrays the region found. -/
theorem final1 (c : Dev nD) :
    (dat1 V c).arrAt 3 cfg1.N = Gcn.affineRelu (V c main_v48) (V c main_v31) (V c main_v49) :=
  (dat1 V c).arrAt_eq_of_cover 3 _ (fun t _ => flushed1 V c t) (cover1)

/-! ## Region 2: rows plus a bias row, rectified, times the weights -/

/-- The printed block index maps over the grid: the row tiles of the input and of the output move together, point `t`
    at tile `t`; the bias row and the weights are one block each. -/
theorem idx2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every row tile of the output is some point's. -/
theorem onto2 : ∀ q0 : Fin 10, ∃ t : Fin cfg2.N, win2_3.index t = ![q0.val, 0] :=
  (by decide +kernel : ∀ q0 : Fin 10, ∃ t : Fin grid2.N, win2_3.index t = ![q0.val, 0])

/-- What point `t` writes back is tile `t` of the dense map of the arrays as the region finds them. -/
theorem flushed2 (c : Dev nD) (t : Fin cfg2.N) :
    (dat2 V c).flushed 3 t = ((cfg2.win 3).blk t).view.read (Elt Ideal)
      (Gcn.affineRelu (V c main_v63) (V c main_v32) (V c main_v64)) := by
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S128x64) hz]
  rw [pay2]
  obtain ⟨e0, e1, e2, e3, e4, e5, e6⟩ := idx2 t
  funext j
  show Gcn.affineRelu (iblk2 V c 0 t) (iblk2 V c 1 t) (iblk2 V c 2 t) j
      = Gcn.affineRelu (V c main_v63) (V c main_v32) (V c main_v64) (((cfg2.win 3).blk t).view.emb j)
  have hj0 : (j 0).val < 10000 := (j 0).isLt
  have hj1 : (j 1).val < 64 := (j 1).isLt
  unfold Gcn.affineRelu
  refine Finset.sum_congr rfl fun k _ => ?_
  have hk : k.val < 128 := k.isLt
  refine congrArg₂ (· * ·) (congrArg (max · 0) (congrArg₂ (· + ·) ?_ ?_)) ?_
  · show V c main_v63 (((cfg2.win 0).blk t).view.emb (ix2 ⟨(j 0).val, _⟩ k))
        = V c main_v63 (ix2 ⟨((((cfg2.win 3).blk t).view.emb j) 0).val, _⟩ k)
    refine congrArg (V c main_v63) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  · show V c main_v32 (((cfg2.win 1).blk t).view.emb (ix2 (0 : Fin 1) k)) = V c main_v32 (ix2 (0 : Fin 1) k)
    refine congrArg (V c main_v32) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_v64 (((cfg2.win 2).blk t).view.emb (ix2 k ⟨(j 1).val, _⟩))
        = V c main_v64 (ix2 k ⟨((((cfg2.win 3).blk t).view.emb j) 1).val, _⟩)
    refine congrArg (V c main_v64) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega

/-- An index of the output array is in point `t`'s tile iff each coordinate is in the tile's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v65).slice (win2_3.rect t)).set ↔ _
  rw [View.set_slice_whole, Rect.mem_set_unit]
  exact Iff.rfl

/-- The ten row tiles cover the output array: row `p` is in tile `p / 10000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After region 2 its output array holds the dense map of the arrays the region found. -/
theorem final2 (c : Dev nD) :
    (dat2 V c).arrAt 3 cfg2.N = Gcn.affineRelu (V c main_v63) (V c main_v32) (V c main_v64) :=
  (dat2 V c).arrAt_eq_of_cover 3 _ (fun t _ => flushed2 V c t) (cover2)

/-! ## Region 3: the last layer's bias row added to every row -/

/-- The printed block index maps over the grid: the row tiles of the input and of the output move together; the bias
    row is one block. -/
theorem idx3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 :=
  (by decide +kernel : ∀ t : Fin grid3.N, _)

/-- Every row tile of the output is some point's. -/
theorem onto3 : ∀ q0 : Fin 10, ∃ t : Fin cfg3.N, win3_2.index t = ![q0.val, 0] :=
  (by decide +kernel : ∀ q0 : Fin 10, ∃ t : Fin grid3.N, win3_2.index t = ![q0.val, 0])

/-- What point `t` writes back is tile `t` of the biased array. -/
theorem flushed3 (c : Dev nD) (t : Fin cfg3.N) :
    (dat3 V c).flushed 2 t = ((cfg3.win 2).blk t).view.read (Elt Ideal) (Gcn.addRow (V c main_v78) (V c main_v33)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay3]
  obtain ⟨e0, e1, e2, e3, e4⟩ := idx3 t
  funext j
  show Gcn.addRow (iblk3 V c 0 t) (iblk3 V c 1 t) j
      = Gcn.addRow (V c main_v78) (V c main_v33) (((cfg3.win 2).blk t).view.emb j)
  have hj0 : (j 0).val < 10000 := (j 0).isLt
  have hj1 : (j 1).val < 64 := (j 1).isLt
  unfold Gcn.addRow
  refine congrArg₂ (· + ·) ?_ ?_
  · show V c main_v78 (((cfg3.win 0).blk t).view.emb j) = V c main_v78 (((cfg3.win 2).blk t).view.emb j)
    refine congrArg (V c main_v78) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show V c main_v33 (((cfg3.win 1).blk t).view.emb (ix2 (0 : Fin 1) ⟨(j 1).val, _⟩))
        = V c main_v33 (ix2 (0 : Fin 1) ⟨((((cfg3.win 2).blk t).view.emb j) 1).val, _⟩)
    refine congrArg (V c main_v33) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the output array is in point `t`'s tile iff each coordinate is in the tile's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v79).slice (win3_2.rect t)).set ↔ _
  rw [View.set_slice_whole, Rect.mem_set_unit]
  exact Iff.rfl

/-- The ten row tiles cover the output array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After region 3 its output array holds the biased array. -/
theorem final3 (c : Dev nD) : (dat3 V c).arrAt 2 cfg3.N = Gcn.addRow (V c main_v78) (V c main_v33) :=
  (dat3 V c).arrAt_eq_of_cover 2 _ (fun t _ => flushed3 V c t) (cover3)

end Cert.KernelIdeal.Layers

end
-- ==== Proof.Aggregate.lean ====
/-
  The sparse part of a graph-convolution layer, as one function.

  Given the edge list as two index vectors `src`, `dst` of length 1700000 (the graph's edges followed by one self loop
  per node), a weight per edge `norm` and node features `h` of 100000 rows, the layer sends row `src e` of `h`, scaled by
  `norm e`, along every edge `e` and adds up at node `dst e` what arrives there:
      out(v, ·) = ∑ over the edges e with dst e = v of  norm e · h(src e, ·).
  A negative source index is first shifted up by the number of nodes, as the host program does before it gathers.  How
  the host's gather and scatter-add treat indices that fall outside the array is whatever those two operations do: both
  programs of this certificate apply the same operations with the same dimension records to the same index vectors, so
  this file only NAMES the composition, and nothing in the certificate opens it.
-/
import Idealize.ShloMosaic.PureOps.Ideal
import Idealize.ShloMosaic.Lib.StableHlo

noncomputable section

namespace Cert.Gcn

open Idealize.ShloMosaic

variable {F : FTy → Type} [FloatOps F]

/-- Vectors over the edges. -/
abbrev SE : Shape := ⟨1, ![1700000]⟩
/-- Columns over the edges. -/
abbrev SE1 : Shape := ⟨2, ![1700000, 1]⟩
/-- Scalars. -/
abbrev S0 : Shape := ⟨0, ![]⟩

/-- Gather the source rows, scale each by its edge's weight, add up at the destination rows. -/
def aggregate {d : ℕ} (G : GatherDims ⟨2, ![100000, d]⟩ SE1 ⟨2, ![1700000, d]⟩)
    (Sc : ScatterDims ⟨2, ![100000, d]⟩ SE1 ⟨2, ![1700000, d]⟩)
    (h0 : S0.BroadcastsInDim ⟨2, ![100000, d]⟩ (![] : Fin 0 → Fin 2))
    (h1 : SE.BroadcastsInDim SE1 (![0] : Fin 1 → Fin 2))
    (hE : S0.BroadcastsInDim SE (![] : Fin 0 → Fin 1))
    (h2 : SE1.BroadcastsInDim ⟨2, ![1700000, d]⟩ (![0, 1] : Fin 2 → Fin 2))
    (src dst : (⟨SE, .i32⟩ : BufTy).Contents (Elt F)) (norm : (⟨SE, .f32⟩ : BufTy).Contents (Elt F))
    (h : (⟨⟨2, ![100000, d]⟩, .f32⟩ : BufTy).Contents (Elt F)) : (⟨⟨2, ![100000, d]⟩, .f32⟩ : BufTy).Contents (Elt F) :=
  Host.scatterAdd Sc (broadcastInDim ⟨2, ![100000, d]⟩ ![] h0 (constant (F := F) S0 .f32 0x00000000#32))
    (broadcastInDim SE1 ![0] h1 dst)
    (mulf
      (Host.gather G h (broadcastInDim SE1 ![0] h1
        (select (cmpi .slt src (broadcastInDim SE ![] hE (constantI S0 32 0#32)))
          (addi src (broadcastInDim SE ![] hE (constantI S0 32 100000#32))) src)))
      (broadcastInDim ⟨2, ![1700000, d]⟩ ![0, 1] h2 (broadcastInDim SE1 ![0] h1 norm)))

end Cert.Gcn

end
-- ==== Proof.GcnSpec.lean ====
/-
  The network both programs compute, as one function of the eight arguments, on the extended reals.

  From the edge list `e` (two rows of 1600000 node indices) come the source and destination vectors of length 1700000
  — the edges followed by one self loop per node —, the degree of every node (how many edges arrive at it), its inverse
  square root where the degree is positive and `0` elsewhere, and the weight of an edge: the product of that quantity at
  its two ends.  A layer multiplies the node features by the transposed weight matrix, sends every source row, scaled by
  the edge's weight, along its edge and adds up at the destination (the aggregate), then adds its bias; between layers
  sits the rectifier.  Three layers, of widths 128, 128 and 64:

      out = agg (relu (agg (relu (agg (x·W₁ᵀ) + b₁) · W₂ᵀ) + b₂) · W₃ᵀ) + b₃.

  It is written here in the order in which the launches of the tiled program compute it — the bias and the rectifier of
  a layer as the prologue of the next layer's product (DenseLayers: `affine`, `affineRelu`, `addRow`), the first
  product with a bias row of zeros — and over the host program's own shape records, so that each program's run can be
  read against this one term.  How the host's gather and scatter-add treat an index outside the array is never opened.
-/
import proofs.«173080_j44813688767186_1_alg».proof.ReferenceIdeal
import proofs.«173080_j44813688767186_1_alg».proof.Proof.Gen.ReferenceIdeal
import proofs.«173080_j44813688767186_1_alg».proof.Proof.DenseLayers
import proofs.«173080_j44813688767186_1_alg».proof.Proof.Aggregate
import Idealize.ShloMosaic.PureOps.Ideal

noncomputable section

namespace Cert.ReferenceIdeal.Spec

open Idealize.ShloMosaic Idealize.ShloMosaic.ValueIdx
open Cert.ReferenceIdeal Cert.ReferenceIdeal.Gen

/-- The contents of a buffer of the given shape and element type, on the extended reals. -/
abbrev C (s : Shape) (e : EltTy) := (⟨s, e⟩ : BufTy).Contents (Elt Ideal)

/-! ## The edge lists and the edge weights -/

/-- The sources: row 0 of the edge list, then every node once. -/
def srcOf (e : C S2x1600000 .i32) : C S1700000 .i32 :=
  concatenate S1700000 0 [⟨S1600000, shapeCast _ (extractStridedSlice S1x1600000 ![0, 0] e Facts₀.slices_S2x1600000_S1x1600000_0_0) Facts₀.shapeCasts_S1x1600000_S1600000⟩, ⟨S100000, iotaInDim S100000 32 0⟩] Facts₀.concatenates_S1600000_S100000_S1700000_d0

/-- The destinations: row 1 of the edge list, then every node once. -/
def dstOf (e : C S2x1600000 .i32) : C S1700000 .i32 :=
  concatenate S1700000 0 [⟨S1600000, shapeCast _ (extractStridedSlice S1x1600000 ![1, 0] e Facts₀.slices_S2x1600000_S1x1600000_1_0) Facts₀.shapeCasts_S1x1600000_S1600000⟩, ⟨S100000, iotaInDim S100000 32 0⟩] Facts₀.concatenates_S1600000_S100000_S1700000_d0

/-- A node's degree: one added per edge that arrives at it. -/
def degOf (dst : C S1700000 .i32) : C S100000 .f32 :=
  Host.scatterAdd (F := Ideal) scatter_S100000_S1700000x1_S1700000_n_0_0_1
    (broadcastInDim S100000 ![] Facts₀.bcast_S_S100000 (constant (F := Ideal) S_ .f32 0x00000000#32))
    (broadcastInDim S1700000x1 ![0] Facts₀.bcast_S1700000_S1700000x1_0 dst)
    (broadcastInDim S1700000 ![] Facts₀.bcast_S_S1700000 (constant (F := Ideal) S_ .f32 0x3F800000#32))

/-- Choose per node: where `pos` holds the entry of `rs`, elsewhere the scalar `z`. -/
def dinvFrom (pos : C S100000 .i1) (rs : C S100000 .f32) (z : C S_ .f32) : C S100000 .f32 :=
  select pos rs (broadcastInDim S100000 ![] Facts₀.bcast_S_S100000 (id z))

/-- Whether a node's degree is positive. -/
def posOf (dst : C S1700000 .i32) : C S100000 .i1 :=
  cmpf (F := Ideal) (φ := .f32) .ogt (degOf dst) (broadcastInDim S100000 ![] Facts₀.bcast_S_S100000 (constant (F := Ideal) S_ .f32 0x00000000#32))

/-- The inverse square root of every node's degree. -/
def rsqrtOf (dst : C S1700000 .i32) : C S100000 .f32 := Host.rsqrt (F := Ideal) (φ := .f32) (degOf dst)

/-- The inverse square root of the degree where it is positive, zero elsewhere. -/
def dinvOf (dst : C S1700000 .i32) : C S100000 .f32 :=
  dinvFrom (posOf dst) (rsqrtOf dst) (constant (F := Ideal) S_ .f32 0x00000000#32)

/-- A negative index shifted up by the number of nodes, as the host does before it gathers. -/
def wrapIdx (v : C S1700000 .i32) : C S1700000 .i32 :=
  select (cmpi .slt v (broadcastInDim S1700000 ![] Facts₀.bcast_S_S1700000 (constantI S_ 32 0#32)))
    (addi v (broadcastInDim S1700000 ![] Facts₀.bcast_S_S1700000 (constantI S_ 32 100000#32))) v

/-- An edge's weight from a per-node quantity: its product at the edge's source and destination. -/
def normFrom (dinv : C S100000 .f32) (src dst : C S1700000 .i32) : C S1700000 .f32 :=
  mulf (F := Ideal) (φ := .f32)
    (Host.gather (α := Elt Ideal .f32) gather_S100000_S1700000x1_S1700000_n_0_n_n_0_1_1 dinv
      (broadcastInDim S1700000x1 ![0] Facts₀.bcast_S1700000_S1700000x1_0 (wrapIdx src)))
    (Host.gather (α := Elt Ideal .f32) gather_S100000_S1700000x1_S1700000_n_0_n_n_0_1_1 dinv
      (broadcastInDim S1700000x1 ![0] Facts₀.bcast_S1700000_S1700000x1_0 (wrapIdx dst)))

/-- An edge's weight: the product of the degrees' inverse square roots at its source and at its destination. -/
def normOf (src dst : C S1700000 .i32) : C S1700000 .f32 := normFrom (dinvOf dst) src dst

/-! ## The aggregates -/

/-- The aggregate of 128-column features. -/
def agg128 (src dst : C S1700000 .i32) (nrm : C S1700000 .f32) (h : C S100000x128 .f32) : C S100000x128 .f32 :=
  Gcn.aggregate (F := Ideal) gather_S100000x128_S1700000x1_S1700000x128_1_0_n_n_0_1_1128 scatter_S100000x128_S1700000x1_S1700000x128_1_0_0_1
    Facts₀.bcast_S_S100000x128 Facts₀.bcast_S1700000_S1700000x1_0 Facts₀.bcast_S_S1700000 Facts₀.bcast_S1700000x1_S1700000x128_0_1
    src dst nrm h

/-- The aggregate of 64-column features. -/
def agg64 (src dst : C S1700000 .i32) (nrm : C S1700000 .f32) (h : C S100000x64 .f32) : C S100000x64 .f32 :=
  Gcn.aggregate (F := Ideal) gather_S100000x64_S1700000x1_S1700000x64_1_0_n_n_0_1_164 scatter_S100000x64_S1700000x1_S1700000x64_1_0_0_1
    Facts₀.bcast_S_S100000x64 Facts₀.bcast_S1700000_S1700000x1_0 Facts₀.bcast_S_S1700000 Facts₀.bcast_S1700000x1_S1700000x64_0_1
    src dst nrm h

/-! ## Weights and biases as the dense maps take them -/

/-- A 128 × 128 weight matrix transposed. -/
def tr128 (w : C S128x128 .f32) : C S128x128 .f32 := transpose S128x128 [1, 0] w Facts₀.transposes_S128x128_S128x128_1_0

/-- The 64 × 128 weight matrix transposed. -/
def tr64 (w : C S64x128 .f32) : C S128x64 .f32 := transpose S128x64 [1, 0] w Facts₀.transposes_S64x128_S128x64_1_0

/-- A bias row of zeros. -/
def zeroRow : LayerLaws.Mat 1 128 := fun _ => 0

/-- A bias vector of length 128 as a row. -/
def row128 (b : C S128 .f32) : LayerLaws.Mat 1 128 := fun i => b (ix1 (⟨(i 1).val, idx2_lt1 i⟩ : Fin 128))

/-- A bias vector of length 64 as a row. -/
def row64 (b : C S64 .f32) : LayerLaws.Mat 1 64 := fun i => b (ix1 (⟨(i 1).val, idx2_lt1 i⟩ : Fin 64))

/-! ## The network -/

/-- What both programs return, of the eight arguments. -/
def network (x : C S100000x128 .f32) (w1 : C S128x128 .f32) (b1 : C S128 .f32) (w2 : C S128x128 .f32) (b2 : C S128 .f32)
    (w3 : C S64x128 .f32) (b3 : C S64 .f32) (e : C S2x1600000 .i32) : C S100000x64 .f32 :=
  Gcn.addRow
    (agg64 (srcOf e) (dstOf e) (normOf (srcOf e) (dstOf e))
      (Gcn.affineRelu
        (agg128 (srcOf e) (dstOf e) (normOf (srcOf e) (dstOf e))
          (Gcn.affineRelu
            (agg128 (srcOf e) (dstOf e) (normOf (srcOf e) (dstOf e)) (Gcn.affine x zeroRow (tr128 w1)))
            (row128 b1) (tr128 w2)))
        (row128 b2) (tr64 w3)))
    (row64 b3)

end Cert.ReferenceIdeal.Spec

end
-- ==== Proof.BiasRows.lean ====
/-
  Bias rows.

  A dense map reads its bias only at row 0 (a bias is one row, spread over all rows), so two bias arrays that agree
  there give the same map.  A vector of length `d` reshaped to `[1, d]` holds at `(0, k)` the vector's entry `k`; the
  same vector broadcast first to `[1, d]` and then to `[n, d]` holds it at every `(p, k)`; and a scalar broadcast to
  any shape holds the scalar everywhere.
-/
import proofs.«173080_j44813688767186_1_alg».proof.Proof.DenseLayers
import Idealize.ShloMosaic.Lib.Pipeline.Value

noncomputable section

open scoped BigOperators

namespace Cert.Gcn

open Idealize.ShloMosaic Idealize.ShloMosaic.ValueIdx Cert.LayerLaws

variable {n d : ℕ}

/-! ## Only row 0 of the bias matters -/

theorem affine_row_congr (A : Mat n 128) (b b' : Mat 1 128) (W : Mat 128 d)
    (h : ∀ k : Fin 128, b (ix2 (0 : Fin 1) k) = b' (ix2 (0 : Fin 1) k)) : affine A b W = affine A b' W := by
  funext i
  unfold affine
  exact Finset.sum_congr rfl fun k _ => by rw [h k]

theorem affineRelu_row_congr (A : Mat n 128) (b b' : Mat 1 128) (W : Mat 128 d)
    (h : ∀ k : Fin 128, b (ix2 (0 : Fin 1) k) = b' (ix2 (0 : Fin 1) k)) : affineRelu A b W = affineRelu A b' W := by
  funext i
  unfold affineRelu
  exact Finset.sum_congr rfl fun k _ => by rw [h k]

theorem addRow_row_congr (A : Mat n 64) (b b' : Mat 1 64)
    (h : ∀ q : Fin 64, b (ix2 (0 : Fin 1) q) = b' (ix2 (0 : Fin 1) q)) : addRow A b = addRow A b' := by
  funext i
  unfold addRow
  rw [h]

/-! ## A vector as a row -/

/-- A vector of length 128 reshaped to `[1, 128]` holds at `(0, k)` its entry `k`. -/
theorem reshape_row128 (b : FVec Ideal ⟨1, ![128]⟩ .f32) (h : (⟨1, ![128]⟩ : Shape).ShapeCasts ⟨2, ![1, 128]⟩) (k : Fin 128) :
    shapeCast ⟨2, ![1, 128]⟩ b h (ix2 (0 : Fin 1) k) = b (ix1 k) :=
  shapeCast_apply b h (ix2 (0 : Fin 1) k) (ix1 k) (by
    rw [Shape.rowMajor_val_one, Shape.rowMajor_val_two]
    show k.val = 0 * 128 + k.val
    omega)

/-- A vector of length 64 reshaped to `[1, 64]` holds at `(0, k)` its entry `k`. -/
theorem reshape_row64 (b : FVec Ideal ⟨1, ![64]⟩ .f32) (h : (⟨1, ![64]⟩ : Shape).ShapeCasts ⟨2, ![1, 64]⟩) (k : Fin 64) :
    shapeCast ⟨2, ![1, 64]⟩ b h (ix2 (0 : Fin 1) k) = b (ix1 k) :=
  shapeCast_apply b h (ix2 (0 : Fin 1) k) (ix1 k) (by
    rw [Shape.rowMajor_val_one, Shape.rowMajor_val_two]
    show k.val = 0 * 64 + k.val
    omega)

/-- A vector of length 128 broadcast to `[1, 128]` and then to `[n, 128]` holds at `(p, k)` its entry `k`. -/
theorem bcast_rows128 (b : FVec Ideal ⟨1, ![128]⟩ .f32)
    (h1 : (⟨1, ![128]⟩ : Shape).BroadcastsInDim ⟨2, ![1, 128]⟩ (![1] : Fin 1 → Fin 2))
    (h2 : (⟨2, ![1, 128]⟩ : Shape).BroadcastsInDim ⟨2, ![n, 128]⟩ (![0, 1] : Fin 2 → Fin 2)) (p : Fin n) (k : Fin 128) :
    broadcastInDim ⟨2, ![n, 128]⟩ ![0, 1] h2 (broadcastInDim ⟨2, ![1, 128]⟩ ![1] h1 b) (ix2 p k) = b (ix1 k) := by
  rw [broadcastInDim_apply ![0, 1] h2 _ (ix2 p k) (ix2 (0 : Fin 1) k) (fun a => by
        match a with
        | ⟨0, _⟩ => rfl
        | ⟨1, _⟩ => rfl)]
  exact broadcastInDim_apply ![1] h1 b (ix2 (0 : Fin 1) k) (ix1 k) (fun a => by
    match a with
    | ⟨0, _⟩ => rfl)

/-- A vector of length 64 broadcast to `[1, 64]` and then to `[n, 64]` holds at `(p, k)` its entry `k`. -/
theorem bcast_rows64 (b : FVec Ideal ⟨1, ![64]⟩ .f32)
    (h1 : (⟨1, ![64]⟩ : Shape).BroadcastsInDim ⟨2, ![1, 64]⟩ (![1] : Fin 1 → Fin 2))
    (h2 : (⟨2, ![1, 64]⟩ : Shape).BroadcastsInDim ⟨2, ![n, 64]⟩ (![0, 1] : Fin 2 → Fin 2)) (p : Fin n) (k : Fin 64) :
    broadcastInDim ⟨2, ![n, 64]⟩ ![0, 1] h2 (broadcastInDim ⟨2, ![1, 64]⟩ ![1] h1 b) (ix2 p k) = b (ix1 k) := by
  rw [broadcastInDim_apply ![0, 1] h2 _ (ix2 p k) (ix2 (0 : Fin 1) k) (fun a => by
        match a with
        | ⟨0, _⟩ => rfl
        | ⟨1, _⟩ => rfl)]
  exact broadcastInDim_apply ![1] h1 b (ix2 (0 : Fin 1) k) (ix1 k) (fun a => by
    match a with
    | ⟨0, _⟩ => rfl)

/-- The zero scalar broadcast to any shape holds `0` everywhere. -/
theorem bcast_zero_apply {t : Shape} (h : (⟨0, ![]⟩ : Shape).BroadcastsInDim t (![] : Fin 0 → Fin t.rank)) (j : t.Idx) :
    broadcastInDim t ![] h (constant (F := Ideal) ⟨0, ![]⟩ .f32 0x00000000#32) j = 0 :=
  Ideal.ofBits_zero_f32

end Cert.Gcn

end
-- ==== Proof.KernelValue.lean ====
/-
  What the idealized kernel's run leaves in its result buffer: the network of GcnSpec of the eight arguments.

  The program is three host stretches, then four launches with a host stretch between consecutive ones.  Read from the
  end: the result buffer is launch 3's output, the bias row added to the array host stretch 3 left; that array is the
  aggregate of launch 2's output; launch 2's output is the rectified dense map of the array host stretch 2 left; and so
  on back to the first launch, the plain product of the features with the transposed first weight matrix (its bias row
  is a row of zeros).  The edge vectors and the edge weights are computed once, by the first three host stretches, and
  no later stretch or launch writes them, so every aggregate uses the same ones; likewise the reshaped bias rows and the
  weight matrices reach the launch that reads them unchanged.

  Each host stretch is read once, over arbitrary buffer contents; then the contents of the buffers that matter are
  followed from boundary to boundary.
-/
import proofs.«173080_j44813688767186_1_alg».proof.Proof.KernelRun
import proofs.«173080_j44813688767186_1_alg».proof.Proof.KernelLayers
import proofs.«173080_j44813688767186_1_alg».proof.Proof.GcnSpec
import proofs.«173080_j44813688767186_1_alg».proof.Proof.BiasRows

set_option maxRecDepth 16384

noncomputable section

namespace Cert.KernelIdeal.Value

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Spec (srcOf dstOf normOf normFrom dinvFrom dinvOf posOf rsqrtOf agg128 agg64 tr128 tr64 zeroRow row128 row64 network)

/-! ## The host stretches before the first launch, over arbitrary launch contents -/

set_option maxHeartbeats 4000000 in
theorem pre_v5 (W : Valuation τ sig (Elt Ideal)) :
    StableHlo.after (hostOps0_2 (F := Ideal)) (StableHlo.after (hostOps0_1 (F := Ideal)) (StableHlo.after (hostOps0 (F := Ideal)) W)) (Proc.devRef .tc main_v5)
      = srcOf (W (Proc.devRef .tc main_arg7)) := by
  after_results_simp <;> rfl

set_option maxHeartbeats 4000000 in
theorem pre_v6 (W : Valuation τ sig (Elt Ideal)) :
    StableHlo.after (hostOps0_2 (F := Ideal)) (StableHlo.after (hostOps0_1 (F := Ideal)) (StableHlo.after (hostOps0 (F := Ideal)) W)) (Proc.devRef .tc main_v6)
      = dstOf (W (Proc.devRef .tc main_arg7)) := by
  after_results_simp <;> rfl

/-- The first stretch: whether each node's degree is positive. -/
theorem s0_v12 (W : Valuation τ sig (Elt Ideal)) :
    StableHlo.after (hostOps0 (F := Ideal)) W (Proc.devRef .tc main_v12) = posOf (dstOf (W (Proc.devRef .tc main_arg7))) := by
  after_results_simp <;> rfl

/-- The first stretch: the inverse square root of each node's degree. -/
theorem s0_v13 (W : Valuation τ sig (Elt Ideal)) :
    StableHlo.after (hostOps0 (F := Ideal)) W (Proc.devRef .tc main_v13) = rsqrtOf (dstOf (W (Proc.devRef .tc main_arg7))) := by
  after_results_simp <;> rfl

/-- The first stretch: the zero the choice falls back to. -/
theorem s0_cst2 (W : Valuation τ sig (Elt Ideal)) :
    StableHlo.after (hostOps0 (F := Ideal)) W (Proc.devRef .tc main_cst_2) = constant (F := Ideal) S_ .f32 0x00000000#32 := by
  after_results_simp <;> rfl

theorem s0_v5 (W : Valuation τ sig (Elt Ideal)) :
    StableHlo.after (hostOps0 (F := Ideal)) W (Proc.devRef .tc main_v5) = srcOf (W (Proc.devRef .tc main_arg7)) := by
  after_results_simp <;> rfl

theorem s0_v6 (W : Valuation τ sig (Elt Ideal)) :
    StableHlo.after (hostOps0 (F := Ideal)) W (Proc.devRef .tc main_v6) = dstOf (W (Proc.devRef .tc main_arg7)) := by
  after_results_simp <;> rfl

/-- The second stretch, the outlined choice: per node the inverse square root where the degree is positive. -/
theorem s1_v14 (W : Valuation τ sig (Elt Ideal)) :
    StableHlo.after (hostOps0_1 (F := Ideal)) W (Proc.devRef .tc main_v14)
      = dinvFrom (W (Proc.devRef .tc main_v12)) (W (Proc.devRef .tc main_v13)) (W (Proc.devRef .tc main_cst_2)) := by
  after_results_simp <;> rfl

theorem s1_v5 (W : Valuation τ sig (Elt Ideal)) :
    StableHlo.after (hostOps0_1 (F := Ideal)) W (Proc.devRef .tc main_v5) = W (Proc.devRef .tc main_v5) := by
  after_results <;> rfl

theorem s1_v6 (W : Valuation τ sig (Elt Ideal)) :
    StableHlo.after (hostOps0_1 (F := Ideal)) W (Proc.devRef .tc main_v6) = W (Proc.devRef .tc main_v6) := by
  after_results <;> rfl

set_option maxHeartbeats 4000000 in
/-- The third stretch: an edge's weight from the per-node quantity at its two ends. -/
theorem s2_v29 (W : Valuation τ sig (Elt Ideal)) :
    StableHlo.after (hostOps0_2 (F := Ideal)) W (Proc.devRef .tc main_v29)
      = normFrom (W (Proc.devRef .tc main_v14)) (W (Proc.devRef .tc main_v5)) (W (Proc.devRef .tc main_v6)) := by
  after_results_simp <;> rfl

/-- The three stretches together: the edge weights of the edge list. -/
theorem pre_v29 (W : Valuation τ sig (Elt Ideal)) :
    StableHlo.after (hostOps0_2 (F := Ideal)) (StableHlo.after (hostOps0_1 (F := Ideal)) (StableHlo.after (hostOps0 (F := Ideal)) W)) (Proc.devRef .tc main_v29)
      = normOf (srcOf (W (Proc.devRef .tc main_arg7))) (dstOf (W (Proc.devRef .tc main_arg7))) := by
  rw [s2_v29, s1_v14, s1_v5, s1_v6, s0_v5, s0_v6, s0_v12, s0_v13, s0_cst2]
  rfl

set_option maxHeartbeats 4000000 in
theorem pre_v30 (W : Valuation τ sig (Elt Ideal)) :
    StableHlo.after (hostOps0_2 (F := Ideal)) (StableHlo.after (hostOps0_1 (F := Ideal)) (StableHlo.after (hostOps0 (F := Ideal)) W)) (Proc.devRef .tc main_v30)
      = broadcastInDim S1x128 ![] bcast_S_S1x128 (constant (F := Ideal) S_ .f32 0x00000000#32) := by
  after_results_simp <;> rfl

set_option maxHeartbeats 4000000 in
theorem pre_v31 (W : Valuation τ sig (Elt Ideal)) :
    StableHlo.after (hostOps0_2 (F := Ideal)) (StableHlo.after (hostOps0_1 (F := Ideal)) (StableHlo.after (hostOps0 (F := Ideal)) W)) (Proc.devRef .tc main_v31)
      = shapeCast S1x128 (W (Proc.devRef .tc main_arg2)) shapeCasts_S128_S1x128 := by
  after_results_simp <;> rfl

set_option maxHeartbeats 4000000 in
theorem pre_v32 (W : Valuation τ sig (Elt Ideal)) :
    StableHlo.after (hostOps0_2 (F := Ideal)) (StableHlo.after (hostOps0_1 (F := Ideal)) (StableHlo.after (hostOps0 (F := Ideal)) W)) (Proc.devRef .tc main_v32)
      = shapeCast S1x128 (W (Proc.devRef .tc main_arg4)) shapeCasts_S128_S1x128 := by
  after_results_simp <;> rfl

set_option maxHeartbeats 4000000 in
theorem pre_v33 (W : Valuation τ sig (Elt Ideal)) :
    StableHlo.after (hostOps0_2 (F := Ideal)) (StableHlo.after (hostOps0_1 (F := Ideal)) (StableHlo.after (hostOps0 (F := Ideal)) W)) (Proc.devRef .tc main_v33)
      = shapeCast S1x64 (W (Proc.devRef .tc main_arg6)) shapeCasts_S64_S1x64 := by
  after_results_simp <;> rfl

set_option maxHeartbeats 4000000 in
theorem pre_v34 (W : Valuation τ sig (Elt Ideal)) :
    StableHlo.after (hostOps0_2 (F := Ideal)) (StableHlo.after (hostOps0_1 (F := Ideal)) (StableHlo.after (hostOps0 (F := Ideal)) W)) (Proc.devRef .tc main_v34)
      = tr128 (W (Proc.devRef .tc main_arg1)) := by
  after_results_simp <;> rfl

set_option maxHeartbeats 4000000 in
theorem pre_arg0 (W : Valuation τ sig (Elt Ideal)) :
    StableHlo.after (hostOps0_2 (F := Ideal)) (StableHlo.after (hostOps0_1 (F := Ideal)) (StableHlo.after (hostOps0 (F := Ideal)) W)) (Proc.devRef .tc main_arg0)
      = W (Proc.devRef .tc main_arg0) := by
  after_results_simp <;> rfl

set_option maxHeartbeats 4000000 in
theorem pre_arg3 (W : Valuation τ sig (Elt Ideal)) :
    StableHlo.after (hostOps0_2 (F := Ideal)) (StableHlo.after (hostOps0_1 (F := Ideal)) (StableHlo.after (hostOps0 (F := Ideal)) W)) (Proc.devRef .tc main_arg3)
      = W (Proc.devRef .tc main_arg3) := by
  after_results_simp <;> rfl

set_option maxHeartbeats 4000000 in
theorem pre_arg5 (W : Valuation τ sig (Elt Ideal)) :
    StableHlo.after (hostOps0_2 (F := Ideal)) (StableHlo.after (hostOps0_1 (F := Ideal)) (StableHlo.after (hostOps0 (F := Ideal)) W)) (Proc.devRef .tc main_arg5)
      = W (Proc.devRef .tc main_arg5) := by
  after_results_simp <;> rfl

/-! ## The host stretches between the launches, over arbitrary contents -/

set_option maxHeartbeats 4000000 in
theorem host1_v48 (W : Valuation τ sig (Elt Ideal)) :
    StableHlo.after (hostOps1 (F := Ideal)) W (Proc.devRef .tc main_v48)
      = agg128 (W (Proc.devRef .tc main_v5)) (W (Proc.devRef .tc main_v6)) (W (Proc.devRef .tc main_v29)) (W (Proc.devRef .tc main_v35)) := by
  after_results_simp <;> rfl

theorem host1_v49 (W : Valuation τ sig (Elt Ideal)) :
    StableHlo.after (hostOps1 (F := Ideal)) W (Proc.devRef .tc main_v49) = tr128 (W (Proc.devRef .tc main_arg3)) := by
  after_results <;> rfl

set_option maxHeartbeats 4000000 in
theorem host2_v63 (W : Valuation τ sig (Elt Ideal)) :
    StableHlo.after (hostOps2 (F := Ideal)) W (Proc.devRef .tc main_v63)
      = agg128 (W (Proc.devRef .tc main_v5)) (W (Proc.devRef .tc main_v6)) (W (Proc.devRef .tc main_v29)) (W (Proc.devRef .tc main_v50)) := by
  after_results_simp <;> rfl

theorem host2_v64 (W : Valuation τ sig (Elt Ideal)) :
    StableHlo.after (hostOps2 (F := Ideal)) W (Proc.devRef .tc main_v64) = tr64 (W (Proc.devRef .tc main_arg5)) := by
  after_results <;> rfl

set_option maxHeartbeats 4000000 in
theorem host3_v78 (W : Valuation τ sig (Elt Ideal)) :
    StableHlo.after (hostOps3 (F := Ideal)) W (Proc.devRef .tc main_v78)
      = agg64 (W (Proc.devRef .tc main_v5)) (W (Proc.devRef .tc main_v6)) (W (Proc.devRef .tc main_v29)) (W (Proc.devRef .tc main_v65)) := by
  after_results_simp <;> rfl

/-! ### What a host stretch does not write it keeps -/

theorem keep_hostOps1_v5 (W : Valuation τ sig (Elt Ideal)) : StableHlo.after (hostOps1 (F := Ideal)) W (Proc.devRef .tc main_v5) = W (Proc.devRef .tc main_v5) := by
  after_results <;> rfl
theorem keep_hostOps1_v6 (W : Valuation τ sig (Elt Ideal)) : StableHlo.after (hostOps1 (F := Ideal)) W (Proc.devRef .tc main_v6) = W (Proc.devRef .tc main_v6) := by
  after_results <;> rfl
theorem keep_hostOps1_v29 (W : Valuation τ sig (Elt Ideal)) : StableHlo.after (hostOps1 (F := Ideal)) W (Proc.devRef .tc main_v29) = W (Proc.devRef .tc main_v29) := by
  after_results <;> rfl
theorem keep_hostOps1_v31 (W : Valuation τ sig (Elt Ideal)) : StableHlo.after (hostOps1 (F := Ideal)) W (Proc.devRef .tc main_v31) = W (Proc.devRef .tc main_v31) := by
  after_results <;> rfl
theorem keep_hostOps1_v32 (W : Valuation τ sig (Elt Ideal)) : StableHlo.after (hostOps1 (F := Ideal)) W (Proc.devRef .tc main_v32) = W (Proc.devRef .tc main_v32) := by
  after_results <;> rfl
theorem keep_hostOps1_v33 (W : Valuation τ sig (Elt Ideal)) : StableHlo.after (hostOps1 (F := Ideal)) W (Proc.devRef .tc main_v33) = W (Proc.devRef .tc main_v33) := by
  after_results <;> rfl
theorem keep_hostOps1_arg5 (W : Valuation τ sig (Elt Ideal)) : StableHlo.after (hostOps1 (F := Ideal)) W (Proc.devRef .tc main_arg5) = W (Proc.devRef .tc main_arg5) := by
  after_results <;> rfl
theorem keep_hostOps2_v5 (W : Valuation τ sig (Elt Ideal)) : StableHlo.after (hostOps2 (F := Ideal)) W (Proc.devRef .tc main_v5) = W (Proc.devRef .tc main_v5) := by
  after_results <;> rfl
theorem keep_hostOps2_v6 (W : Valuation τ sig (Elt Ideal)) : StableHlo.after (hostOps2 (F := Ideal)) W (Proc.devRef .tc main_v6) = W (Proc.devRef .tc main_v6) := by
  after_results <;> rfl
theorem keep_hostOps2_v29 (W : Valuation τ sig (Elt Ideal)) : StableHlo.after (hostOps2 (F := Ideal)) W (Proc.devRef .tc main_v29) = W (Proc.devRef .tc main_v29) := by
  after_results <;> rfl
theorem keep_hostOps2_v32 (W : Valuation τ sig (Elt Ideal)) : StableHlo.after (hostOps2 (F := Ideal)) W (Proc.devRef .tc main_v32) = W (Proc.devRef .tc main_v32) := by
  after_results <;> rfl
theorem keep_hostOps2_v33 (W : Valuation τ sig (Elt Ideal)) : StableHlo.after (hostOps2 (F := Ideal)) W (Proc.devRef .tc main_v33) = W (Proc.devRef .tc main_v33) := by
  after_results <;> rfl
theorem keep_hostOps3_v33 (W : Valuation τ sig (Elt Ideal)) : StableHlo.after (hostOps3 (F := Ideal)) W (Proc.devRef .tc main_v33) = W (Proc.devRef .tc main_v33) := by
  after_results <;> rfl

/-! ## From boundary to boundary -/

variable (m : (ℓ : Loc nD τ sig) → Buf (Elt Ideal) ℓ) (ρ : Dev nD → PrngReg) (c : Dev nD)

theorem at3_v5 : W3 m ρ c (Proc.devRef .tc main_v5) = (srcOf (m ((c.tc : Thread nD τ).loc main_arg7))) := pre_v5 (W0 m ρ c)
theorem at3_v6 : W3 m ρ c (Proc.devRef .tc main_v6) = (dstOf (m ((c.tc : Thread nD τ).loc main_arg7))) := pre_v6 (W0 m ρ c)
theorem at3_v29 : W3 m ρ c (Proc.devRef .tc main_v29) = (normOf (srcOf (m ((c.tc : Thread nD τ).loc main_arg7))) (dstOf (m ((c.tc : Thread nD τ).loc main_arg7)))) := pre_v29 (W0 m ρ c)
theorem at3_v31 : W3 m ρ c (Proc.devRef .tc main_v31) = (shapeCast S1x128 (m ((c.tc : Thread nD τ).loc main_arg2)) shapeCasts_S128_S1x128) := pre_v31 (W0 m ρ c)
theorem at3_v32 : W3 m ρ c (Proc.devRef .tc main_v32) = (shapeCast S1x128 (m ((c.tc : Thread nD τ).loc main_arg4)) shapeCasts_S128_S1x128) := pre_v32 (W0 m ρ c)
theorem at3_v33 : W3 m ρ c (Proc.devRef .tc main_v33) = (shapeCast S1x64 (m ((c.tc : Thread nD τ).loc main_arg6)) shapeCasts_S64_S1x64) := pre_v33 (W0 m ρ c)
theorem at3_arg3 : W3 m ρ c (Proc.devRef .tc main_arg3) = (m ((c.tc : Thread nD τ).loc main_arg3)) := pre_arg3 (W0 m ρ c)
theorem at3_arg5 : W3 m ρ c (Proc.devRef .tc main_arg5) = (m ((c.tc : Thread nD τ).loc main_arg5)) := pre_arg5 (W0 m ρ c)
theorem at4_v5 : W4 m ρ c (Proc.devRef .tc main_v5) = (srcOf (m ((c.tc : Thread nD τ).loc main_arg7))) := (W4_of_ne m ρ c main_v5 (by decide)).trans (at3_v5 m ρ c)
theorem at4_v6 : W4 m ρ c (Proc.devRef .tc main_v6) = (dstOf (m ((c.tc : Thread nD τ).loc main_arg7))) := (W4_of_ne m ρ c main_v6 (by decide)).trans (at3_v6 m ρ c)
theorem at4_v29 : W4 m ρ c (Proc.devRef .tc main_v29) = (normOf (srcOf (m ((c.tc : Thread nD τ).loc main_arg7))) (dstOf (m ((c.tc : Thread nD τ).loc main_arg7)))) := (W4_of_ne m ρ c main_v29 (by decide)).trans (at3_v29 m ρ c)
theorem at4_v31 : W4 m ρ c (Proc.devRef .tc main_v31) = (shapeCast S1x128 (m ((c.tc : Thread nD τ).loc main_arg2)) shapeCasts_S128_S1x128) := (W4_of_ne m ρ c main_v31 (by decide)).trans (at3_v31 m ρ c)
theorem at4_v32 : W4 m ρ c (Proc.devRef .tc main_v32) = (shapeCast S1x128 (m ((c.tc : Thread nD τ).loc main_arg4)) shapeCasts_S128_S1x128) := (W4_of_ne m ρ c main_v32 (by decide)).trans (at3_v32 m ρ c)
theorem at4_v33 : W4 m ρ c (Proc.devRef .tc main_v33) = (shapeCast S1x64 (m ((c.tc : Thread nD τ).loc main_arg6)) shapeCasts_S64_S1x64) := (W4_of_ne m ρ c main_v33 (by decide)).trans (at3_v33 m ρ c)
theorem at4_arg3 : W4 m ρ c (Proc.devRef .tc main_arg3) = (m ((c.tc : Thread nD τ).loc main_arg3)) := (W4_of_ne m ρ c main_arg3 (by decide)).trans (at3_arg3 m ρ c)
theorem at4_arg5 : W4 m ρ c (Proc.devRef .tc main_arg5) = (m ((c.tc : Thread nD τ).loc main_arg5)) := (W4_of_ne m ρ c main_arg5 (by decide)).trans (at3_arg5 m ρ c)
theorem at5_v5 : W5 m ρ c (Proc.devRef .tc main_v5) = (srcOf (m ((c.tc : Thread nD τ).loc main_arg7))) := (keep_hostOps1_v5 (W4 m ρ c)).trans (at4_v5 m ρ c)
theorem at5_v6 : W5 m ρ c (Proc.devRef .tc main_v6) = (dstOf (m ((c.tc : Thread nD τ).loc main_arg7))) := (keep_hostOps1_v6 (W4 m ρ c)).trans (at4_v6 m ρ c)
theorem at5_v29 : W5 m ρ c (Proc.devRef .tc main_v29) = (normOf (srcOf (m ((c.tc : Thread nD τ).loc main_arg7))) (dstOf (m ((c.tc : Thread nD τ).loc main_arg7)))) := (keep_hostOps1_v29 (W4 m ρ c)).trans (at4_v29 m ρ c)
theorem at5_v31 : W5 m ρ c (Proc.devRef .tc main_v31) = (shapeCast S1x128 (m ((c.tc : Thread nD τ).loc main_arg2)) shapeCasts_S128_S1x128) := (keep_hostOps1_v31 (W4 m ρ c)).trans (at4_v31 m ρ c)
theorem at5_v32 : W5 m ρ c (Proc.devRef .tc main_v32) = (shapeCast S1x128 (m ((c.tc : Thread nD τ).loc main_arg4)) shapeCasts_S128_S1x128) := (keep_hostOps1_v32 (W4 m ρ c)).trans (at4_v32 m ρ c)
theorem at5_v33 : W5 m ρ c (Proc.devRef .tc main_v33) = (shapeCast S1x64 (m ((c.tc : Thread nD τ).loc main_arg6)) shapeCasts_S64_S1x64) := (keep_hostOps1_v33 (W4 m ρ c)).trans (at4_v33 m ρ c)
theorem at5_arg5 : W5 m ρ c (Proc.devRef .tc main_arg5) = (m ((c.tc : Thread nD τ).loc main_arg5)) := (keep_hostOps1_arg5 (W4 m ρ c)).trans (at4_arg5 m ρ c)
theorem at6_v5 : W6 m ρ c (Proc.devRef .tc main_v5) = (srcOf (m ((c.tc : Thread nD τ).loc main_arg7))) := (W6_of_ne m ρ c main_v5 (by decide)).trans (at5_v5 m ρ c)
theorem at6_v6 : W6 m ρ c (Proc.devRef .tc main_v6) = (dstOf (m ((c.tc : Thread nD τ).loc main_arg7))) := (W6_of_ne m ρ c main_v6 (by decide)).trans (at5_v6 m ρ c)
theorem at6_v29 : W6 m ρ c (Proc.devRef .tc main_v29) = (normOf (srcOf (m ((c.tc : Thread nD τ).loc main_arg7))) (dstOf (m ((c.tc : Thread nD τ).loc main_arg7)))) := (W6_of_ne m ρ c main_v29 (by decide)).trans (at5_v29 m ρ c)
theorem at6_v32 : W6 m ρ c (Proc.devRef .tc main_v32) = (shapeCast S1x128 (m ((c.tc : Thread nD τ).loc main_arg4)) shapeCasts_S128_S1x128) := (W6_of_ne m ρ c main_v32 (by decide)).trans (at5_v32 m ρ c)
theorem at6_v33 : W6 m ρ c (Proc.devRef .tc main_v33) = (shapeCast S1x64 (m ((c.tc : Thread nD τ).loc main_arg6)) shapeCasts_S64_S1x64) := (W6_of_ne m ρ c main_v33 (by decide)).trans (at5_v33 m ρ c)
theorem at6_arg5 : W6 m ρ c (Proc.devRef .tc main_arg5) = (m ((c.tc : Thread nD τ).loc main_arg5)) := (W6_of_ne m ρ c main_arg5 (by decide)).trans (at5_arg5 m ρ c)
theorem at7_v5 : W7 m ρ c (Proc.devRef .tc main_v5) = (srcOf (m ((c.tc : Thread nD τ).loc main_arg7))) := (keep_hostOps2_v5 (W6 m ρ c)).trans (at6_v5 m ρ c)
theorem at7_v6 : W7 m ρ c (Proc.devRef .tc main_v6) = (dstOf (m ((c.tc : Thread nD τ).loc main_arg7))) := (keep_hostOps2_v6 (W6 m ρ c)).trans (at6_v6 m ρ c)
theorem at7_v29 : W7 m ρ c (Proc.devRef .tc main_v29) = (normOf (srcOf (m ((c.tc : Thread nD τ).loc main_arg7))) (dstOf (m ((c.tc : Thread nD τ).loc main_arg7)))) := (keep_hostOps2_v29 (W6 m ρ c)).trans (at6_v29 m ρ c)
theorem at7_v32 : W7 m ρ c (Proc.devRef .tc main_v32) = (shapeCast S1x128 (m ((c.tc : Thread nD τ).loc main_arg4)) shapeCasts_S128_S1x128) := (keep_hostOps2_v32 (W6 m ρ c)).trans (at6_v32 m ρ c)
theorem at7_v33 : W7 m ρ c (Proc.devRef .tc main_v33) = (shapeCast S1x64 (m ((c.tc : Thread nD τ).loc main_arg6)) shapeCasts_S64_S1x64) := (keep_hostOps2_v33 (W6 m ρ c)).trans (at6_v33 m ρ c)
theorem at8_v5 : W8 m ρ c (Proc.devRef .tc main_v5) = (srcOf (m ((c.tc : Thread nD τ).loc main_arg7))) := (W8_of_ne m ρ c main_v5 (by decide)).trans (at7_v5 m ρ c)
theorem at8_v6 : W8 m ρ c (Proc.devRef .tc main_v6) = (dstOf (m ((c.tc : Thread nD τ).loc main_arg7))) := (W8_of_ne m ρ c main_v6 (by decide)).trans (at7_v6 m ρ c)
theorem at8_v29 : W8 m ρ c (Proc.devRef .tc main_v29) = (normOf (srcOf (m ((c.tc : Thread nD τ).loc main_arg7))) (dstOf (m ((c.tc : Thread nD τ).loc main_arg7)))) := (W8_of_ne m ρ c main_v29 (by decide)).trans (at7_v29 m ρ c)
theorem at8_v33 : W8 m ρ c (Proc.devRef .tc main_v33) = (shapeCast S1x64 (m ((c.tc : Thread nD τ).loc main_arg6)) shapeCasts_S64_S1x64) := (W8_of_ne m ρ c main_v33 (by decide)).trans (at7_v33 m ρ c)
theorem at9_v33 : W9 m ρ c (Proc.devRef .tc main_v33) = (shapeCast S1x64 (m ((c.tc : Thread nD τ).loc main_arg6)) shapeCasts_S64_S1x64) := (keep_hostOps3_v33 (W8 m ρ c)).trans (at8_v33 m ρ c)

/-! ## The launches' outputs and the aggregates of them -/

theorem at3_arg0 : W3 m ρ c (Proc.devRef .tc main_arg0) = (m ((c.tc : Thread nD τ).loc main_arg0)) := pre_arg0 (W0 m ρ c)
theorem at3_v30 : W3 m ρ c (Proc.devRef .tc main_v30) = (broadcastInDim S1x128 ![] bcast_S_S1x128 (constant (F := Ideal) S_ .f32 0x00000000#32)) := pre_v30 (W0 m ρ c)
theorem at3_v34 : W3 m ρ c (Proc.devRef .tc main_v34) = tr128 (m ((c.tc : Thread nD τ).loc main_arg1)) := pre_v34 (W0 m ρ c)

/-- Launch 0's output: the features times the transposed first weights (the bias row is zeros). -/
theorem at4_v35 : W4 m ρ c (Proc.devRef .tc main_v35) = (Gcn.affine (m ((c.tc : Thread nD τ).loc main_arg0)) (broadcastInDim S1x128 ![] bcast_S_S1x128 (constant (F := Ideal) S_ .f32 0x00000000#32)) (tr128 (m ((c.tc : Thread nD τ).loc main_arg1)))) := by
  refine (W4_arr m ρ c 3).trans ((Layers.final0 (V3 m ρ) c).trans ?_)
  show Gcn.affine (W3 m ρ c (Proc.devRef .tc main_arg0)) (W3 m ρ c (Proc.devRef .tc main_v30)) (W3 m ρ c (Proc.devRef .tc main_v34)) = _
  rw [at3_arg0, at3_v30, at3_v34]

theorem at5_v48 : W5 m ρ c (Proc.devRef .tc main_v48) = (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affine (m ((c.tc : Thread nD τ).loc main_arg0)) (broadcastInDim S1x128 ![] bcast_S_S1x128 (constant (F := Ideal) S_ .f32 0x00000000#32)) (tr128 (m ((c.tc : Thread nD τ).loc main_arg1))))) := by
  refine (host1_v48 (W4 m ρ c)).trans ?_
  rw [at4_v5, at4_v6, at4_v29, at4_v35]

theorem at5_v49 : W5 m ρ c (Proc.devRef .tc main_v49) = tr128 (m ((c.tc : Thread nD τ).loc main_arg3)) := by
  refine (host1_v49 (W4 m ρ c)).trans ?_
  rw [at4_arg3]

/-- Launch 1's output. -/
theorem at6_v50 : W6 m ρ c (Proc.devRef .tc main_v50) = (Gcn.affineRelu (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affine (m ((c.tc : Thread nD τ).loc main_arg0)) (broadcastInDim S1x128 ![] bcast_S_S1x128 (constant (F := Ideal) S_ .f32 0x00000000#32)) (tr128 (m ((c.tc : Thread nD τ).loc main_arg1))))) (shapeCast S1x128 (m ((c.tc : Thread nD τ).loc main_arg2)) shapeCasts_S128_S1x128) (tr128 (m ((c.tc : Thread nD τ).loc main_arg3)))) := by
  refine (W6_arr m ρ c 3).trans ((Layers.final1 (V5 m ρ) c).trans ?_)
  show Gcn.affineRelu (W5 m ρ c (Proc.devRef .tc main_v48)) (W5 m ρ c (Proc.devRef .tc main_v31)) (W5 m ρ c (Proc.devRef .tc main_v49)) = _
  rw [at5_v48, at5_v31, at5_v49]

theorem at7_v63 : W7 m ρ c (Proc.devRef .tc main_v63) = (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affineRelu (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affine (m ((c.tc : Thread nD τ).loc main_arg0)) (broadcastInDim S1x128 ![] bcast_S_S1x128 (constant (F := Ideal) S_ .f32 0x00000000#32)) (tr128 (m ((c.tc : Thread nD τ).loc main_arg1))))) (shapeCast S1x128 (m ((c.tc : Thread nD τ).loc main_arg2)) shapeCasts_S128_S1x128) (tr128 (m ((c.tc : Thread nD τ).loc main_arg3))))) := by
  refine (host2_v63 (W6 m ρ c)).trans ?_
  rw [at6_v5, at6_v6, at6_v29, at6_v50]

theorem at7_v64 : W7 m ρ c (Proc.devRef .tc main_v64) = tr64 (m ((c.tc : Thread nD τ).loc main_arg5)) := by
  refine (host2_v64 (W6 m ρ c)).trans ?_
  rw [at6_arg5]

/-- Launch 2's output. -/
theorem at8_v65 : W8 m ρ c (Proc.devRef .tc main_v65) = (Gcn.affineRelu (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affineRelu (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affine (m ((c.tc : Thread nD τ).loc main_arg0)) (broadcastInDim S1x128 ![] bcast_S_S1x128 (constant (F := Ideal) S_ .f32 0x00000000#32)) (tr128 (m ((c.tc : Thread nD τ).loc main_arg1))))) (shapeCast S1x128 (m ((c.tc : Thread nD τ).loc main_arg2)) shapeCasts_S128_S1x128) (tr128 (m ((c.tc : Thread nD τ).loc main_arg3))))) (shapeCast S1x128 (m ((c.tc : Thread nD τ).loc main_arg4)) shapeCasts_S128_S1x128) (tr64 (m ((c.tc : Thread nD τ).loc main_arg5)))) := by
  refine (W8_arr m ρ c 3).trans ((Layers.final2 (V7 m ρ) c).trans ?_)
  show Gcn.affineRelu (W7 m ρ c (Proc.devRef .tc main_v63)) (W7 m ρ c (Proc.devRef .tc main_v32)) (W7 m ρ c (Proc.devRef .tc main_v64)) = _
  rw [at7_v63, at7_v32, at7_v64]

theorem at9_v78 : W9 m ρ c (Proc.devRef .tc main_v78) = (agg64 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affineRelu (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affineRelu (agg128 (srcOf (m ((c.tc : Thread nD τ).loc main_arg7))) (dstOf (m ((c.tc : Thread nD τ).loc main_arg7))) (normOf (srcOf (m ((c.tc : Thread nD τ).loc main_arg7))) (dstOf (m ((c.tc : Thread nD τ).loc main_arg7)))) (Gcn.affine (m ((c.tc : Thread nD τ).loc main_arg0)) (broadcastInDim S1x128 ![] bcast_S_S1x128 (constant (F := Ideal) S_ .f32 0x00000000#32)) (tr128 (m ((c.tc : Thread nD τ).loc main_arg1))))) (shapeCast S1x128 (m ((c.tc : Thread nD τ).loc main_arg2)) shapeCasts_S128_S1x128) (tr128 (m ((c.tc : Thread nD τ).loc main_arg3))))) (shapeCast S1x128 (m ((c.tc : Thread nD τ).loc main_arg4)) shapeCasts_S128_S1x128) (tr64 (m ((c.tc : Thread nD τ).loc main_arg5))))) := by
  refine (host3_v78 (W8 m ρ c)).trans ?_
  rw [at8_v5, at8_v6, at8_v29, at8_v65]

/-! ## The result -/

/-- The result buffer after the run holds the network of the arguments. -/
theorem result : W10 m ρ c (Proc.devRef .tc main_v79)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W10_arr m ρ c 2).trans ((Layers.final3 (V9 m ρ) c).trans ?_)
  show Gcn.addRow (W9 m ρ c (Proc.devRef .tc main_v78)) (W9 m ρ c (Proc.devRef .tc main_v33)) = _
  rw [at9_v78, at9_v33]
  unfold network
  rw [Gcn.affine_row_congr _ (broadcastInDim S1x128 ![] bcast_S_S1x128 (constant (F := Ideal) S_ .f32 0x00000000#32)) zeroRow _ (fun k => Gcn.bcast_zero_apply (t := S1x128) bcast_S_S1x128 (ix2 (0 : Fin 1) k)),
    Gcn.affineRelu_row_congr _ (shapeCast S1x128 (m ((c.tc : Thread nD τ).loc main_arg2)) shapeCasts_S128_S1x128) (row128 (m ((c.tc : Thread nD τ).loc main_arg2))) _ (fun k => Gcn.reshape_row128 _ _ k),
    Gcn.affineRelu_row_congr _ (shapeCast S1x128 (m ((c.tc : Thread nD τ).loc main_arg4)) shapeCasts_S128_S1x128) (row128 (m ((c.tc : Thread nD τ).loc main_arg4))) _ (fun k => Gcn.reshape_row128 _ _ k),
    Gcn.addRow_row_congr _ (shapeCast S1x64 (m ((c.tc : Thread nD τ).loc main_arg6)) shapeCasts_S64_S1x64) (row64 (m ((c.tc : Thread nD τ).loc main_arg6))) (fun k => Gcn.reshape_row64 _ _ k)]

end Cert.KernelIdeal.Value

end
-- ==== Proof.RefValue.lean ====
/-
  What the reference program's run leaves in its result buffer: the network of GcnSpec of the eight arguments.

  The host program is one list of operations, here cut in seven consecutive pieces: the edge vectors and the node
  degrees; the outlined choice "inverse square root where the degree is positive, zero elsewhere"; the edge weights and
  the first layer up to its bias; the first outlined rectifier; the second layer; the second rectifier; the third layer.
  Each piece is read once over arbitrary buffer contents, and the buffers that matter are followed from piece to piece.
  Read at the result buffer the fold is the term `hostTerm` below: three times "product with the transposed weights,
  aggregate, add the bias", with the rectifier after the first two.  A product followed by nothing, and a bias and a rectifier followed by the next
  product, are the dense maps of DenseLayers entry by entry (`dot_affine`, `dot_affineRelu`, `add_addRow`): the host's
  `dot_general` is on the extended reals the sum over the contracted axis, a bias vector broadcast over the rows holds
  its entry `k` at every `(p, k)`, the rectifier is the maximum with zero, and `a + 0 = a`.
-/
import proofs.«173080_j44813688767186_1_alg».proof.Proof.RefRun
import proofs.«173080_j44813688767186_1_alg».proof.Proof.GcnSpec
import proofs.«173080_j44813688767186_1_alg».proof.Proof.BiasRows

set_option maxRecDepth 16384

noncomputable section

open scoped BigOperators

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP
open Cert.ReferenceIdeal.Spec

/-! ## The host program's term -/

/-- A bias vector of length 128 spread over 100000 rows. -/
def bias128 (b : C S128 .f32) : C S100000x128 .f32 :=
  broadcastInDim S100000x128 ![0, 1] Facts₀.bcast_S1x128_S100000x128_0_1 (broadcastInDim S1x128 ![1] Facts₀.bcast_S128_S1x128_1 b)

/-- A bias vector of length 64 spread over 100000 rows. -/
def bias64 (b : C S64 .f32) : C S100000x64 .f32 :=
  broadcastInDim S100000x64 ![0, 1] Facts₀.bcast_S1x64_S100000x64_0_1 (broadcastInDim S1x64 ![1] Facts₀.bcast_S64_S1x64_1 b)

/-- An array of zeros, 100000 by 128. -/
def zeros128 : C S100000x128 .f32 :=
  broadcastInDim S100000x128 ![] Facts₀.bcast_S_S100000x128 (constant (F := Ideal) S_ .f32 0x00000000#32)

/-- The host's product of an `[100000, 128]` array with a `[128, 128]` matrix. -/
def dot128 (a : C S100000x128 .f32) (w : C S128x128 .f32) : C S100000x128 .f32 :=
  Host.dotGeneral (F := Ideal) (φ₁ := .f32) (φ₂ := .f32) dot_S100000x128_S128x128_S100000x128_1_0_0_1_n_n none a w

/-- The host's product of an `[100000, 128]` array with a `[128, 64]` matrix. -/
def dot64 (a : C S100000x128 .f32) (w : C S128x64 .f32) : C S100000x64 .f32 :=
  Host.dotGeneral (F := Ideal) (φ₁ := .f32) (φ₂ := .f32) dot_S100000x128_S128x64_S100000x64_1_0_0_1_n_n none a w

/-- The host program's result as it computes it: product, aggregate, bias, rectifier; three layers. -/
def hostTerm (x : C S100000x128 .f32) (w1 : C S128x128 .f32) (b1 : C S128 .f32) (w2 : C S128x128 .f32) (b2 : C S128 .f32)
    (w3 : C S64x128 .f32) (b3 : C S64 .f32) (e : C S2x1600000 .i32) : C S100000x64 .f32 :=
  addf (F := Ideal) (φ := .f32)
    (agg64 (srcOf e) (dstOf e) (normOf (srcOf e) (dstOf e))
      (dot64
        (maximumf (F := Ideal) (φ := .f32)
          (addf (F := Ideal) (φ := .f32)
            (agg128 (srcOf e) (dstOf e) (normOf (srcOf e) (dstOf e))
              (dot128
                (maximumf (F := Ideal) (φ := .f32)
                  (addf (F := Ideal) (φ := .f32) (agg128 (srcOf e) (dstOf e) (normOf (srcOf e) (dstOf e)) (dot128 x (tr128 w1))) (bias128 b1))
                  zeros128)
                (tr128 w2)))
            (bias128 b2))
          zeros128)
        (tr64 w3)))
    (bias64 b3)

/-! ## The operation list in seven pieces -/

variable {F : FTy → Type} [FloatOps F]

abbrev segA : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev segWh : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev segC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_arg1 main_v30 ((transpose S128x128 [1, 0] · transposes_S128x128_S128x128_1_0) : (⟨S128x128, .f32⟩ : BufTy).Contents (Elt F) → (⟨S128x128, .f32⟩ : BufTy).Contents (Elt F)),
    binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v5 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v5 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]

abbrev segR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf ]

abbrev segD : List (HloOp τ sig (Elt F)) :=
  [ unary main_arg3 main_v49 ((transpose S128x128 [1, 0] · transposes_S128x128_S128x128_1_0) : (⟨S128x128, .f32⟩ : BufTy).Contents (Elt F) → (⟨S128x128, .f32⟩ : BufTy).Contents (Elt F)),
    binary main_v48 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v51 (broadcastInDim S1700000 ![] bcast_S_S1700000 : (⟨S_, .i32⟩ : BufTy).Contents (Elt F) → (⟨S1700000, .i32⟩ : BufTy).Contents (Elt F)),
    binary main_v5 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v53 (broadcastInDim S1700000 ![] bcast_S_S1700000 : (⟨S_, .i32⟩ : BufTy).Contents (Elt F) → (⟨S1700000, .i32⟩ : BufTy).Contents (Elt F)),
    binary main_v5 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v5 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)) ]

abbrev segR2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]

abbrev segE : List (HloOp τ sig (Elt F)) :=
  [ unary main_arg5 main_v68 ((transpose S128x64 [1, 0] · transposes_S64x128_S128x64_1_0) : (⟨S64x128, .f32⟩ : BufTy).Contents (Elt F) → (⟨S128x64, .f32⟩ : BufTy).Contents (Elt F)),
    binary main_v67 main_v68 main_v69 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v70 (broadcastInDim S1700000 ![] bcast_S_S1700000 : (⟨S_, .i32⟩ : BufTy).Contents (Elt F) → (⟨S1700000, .i32⟩ : BufTy).Contents (Elt F)),
    binary main_v5 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v72 (broadcastInDim S1700000 ![] bcast_S_S1700000 : (⟨S_, .i32⟩ : BufTy).Contents (Elt F) → (⟨S1700000, .i32⟩ : BufTy).Contents (Elt F)),
    binary main_v5 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v5 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v69 main_v75 main_v76 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v77 (broadcastInDim S1700000x1 ![0] bcast_S1700000_S1700000x1_0 : (⟨S1700000, .f32⟩ : BufTy).Contents (Elt F) → (⟨S1700000x1, .f32⟩ : BufTy).Contents (Elt F)),
    unary main_v77 main_v78 (broadcastInDim S1700000x64 ![0, 1] bcast_S1700000x1_S1700000x64_0_1 : (⟨S1700000x1, .f32⟩ : BufTy).Contents (Elt F) → (⟨S1700000x64, .f32⟩ : BufTy).Contents (Elt F)),
    binary main_v76 main_v78 main_v79 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v80 (broadcastInDim S100000x64 ![] bcast_S_S100000x64 : (⟨S_, .f32⟩ : BufTy).Contents (Elt F) → (⟨S100000x64, .f32⟩ : BufTy).Contents (Elt F)),
    unary main_v6 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v82 main_v84 main_v85 (addf : (⟨S100000x64, .f32⟩ : BufTy).Contents (Elt F) → (⟨S100000x64, .f32⟩ : BufTy).Contents (Elt F) → (⟨S100000x64, .f32⟩ : BufTy).Contents (Elt F)) ]

/-- The pieces in order are the program's operations. -/
theorem ops_eq : (ops : List (HloOp τ sig (Elt F))) = segA ++ (segWh ++ (segC ++ (segR1 ++ (segD ++ (segR2 ++ segE))))) := rfl

/-- The fold over two lists in a row is the fold over the second of the fold over the first. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-! ## Each piece, over arbitrary contents -/

/-- The sources. -/
theorem a_v5 (W : Valuation τ sig (Elt Ideal)) :
    StableHlo.after (segA (F := Ideal)) W (Proc.devRef .tc main_v5)
      = srcOf (W (Proc.devRef .tc main_arg7)) := by
  after_results_simp <;> rfl

/-- The destinations. -/
theorem a_v6 (W : Valuation τ sig (Elt Ideal)) :
    StableHlo.after (segA (F := Ideal)) W (Proc.devRef .tc main_v6)
      = dstOf (W (Proc.devRef .tc main_arg7)) := by
  after_results_simp <;> rfl

/-- Whether each node's degree is positive. -/
theorem a_v12 (W : Valuation τ sig (Elt Ideal)) :
    StableHlo.after (segA (F := Ideal)) W (Proc.devRef .tc main_v12)
      = posOf (dstOf (W (Proc.devRef .tc main_arg7))) := by
  after_results_simp <;> rfl

/-- The inverse square root of each node's degree. -/
theorem a_v13 (W : Valuation τ sig (Elt Ideal)) :
    StableHlo.after (segA (F := Ideal)) W (Proc.devRef .tc main_v13)
      = rsqrtOf (dstOf (W (Proc.devRef .tc main_arg7))) := by
  after_results_simp <;> rfl

/-- The zero the choice falls back to. -/
theorem a_cst2 (W : Valuation τ sig (Elt Ideal)) :
    StableHlo.after (segA (F := Ideal)) W (Proc.devRef .tc main_cst_2)
      = constant (F := Ideal) S_ .f32 0x00000000#32 := by
  after_results_simp <;> rfl

/-- The outlined choice. -/
theorem w_v14 (W : Valuation τ sig (Elt Ideal)) :
    StableHlo.after (segWh (F := Ideal)) W (Proc.devRef .tc main_v14)
      = dinvFrom (W (Proc.devRef .tc main_v12)) (W (Proc.devRef .tc main_v13)) (W (Proc.devRef .tc main_cst_2)) := by
  after_results_simp <;> rfl

set_option maxHeartbeats 4000000 in
/-- The edge weights. -/
theorem c_v29 (W : Valuation τ sig (Elt Ideal)) :
    StableHlo.after (segC (F := Ideal)) W (Proc.devRef .tc main_v29)
      = normFrom (W (Proc.devRef .tc main_v14)) (W (Proc.devRef .tc main_v5)) (W (Proc.devRef .tc main_v6)) := by
  after_results_simp <;> rfl

set_option maxHeartbeats 4000000 in
/-- The first layer up to its bias. -/
theorem c_v47 (W : Valuation τ sig (Elt Ideal)) :
    StableHlo.after (segC (F := Ideal)) W (Proc.devRef .tc main_v47)
      = addf (F := Ideal) (φ := .f32) (agg128 (W (Proc.devRef .tc main_v5)) (W (Proc.devRef .tc main_v6)) (normFrom (W (Proc.devRef .tc main_v14)) (W (Proc.devRef .tc main_v5)) (W (Proc.devRef .tc main_v6))) (dot128 (W (Proc.devRef .tc main_arg0)) (tr128 (W (Proc.devRef .tc main_arg1))))) (bias128 (W (Proc.devRef .tc main_arg2))) := by
  after_results_simp <;> rfl

/-- The first rectifier. -/
theorem r1_v48 (W : Valuation τ sig (Elt Ideal)) :
    StableHlo.after (segR1 (F := Ideal)) W (Proc.devRef .tc main_v48)
      = maximumf (F := Ideal) (φ := .f32) (W (Proc.devRef .tc main_v47)) zeros128 := by
  after_results_simp <;> rfl

set_option maxHeartbeats 4000000 in
/-- The second layer up to its bias. -/
theorem d_v66 (W : Valuation τ sig (Elt Ideal)) :
    StableHlo.after (segD (F := Ideal)) W (Proc.devRef .tc main_v66)
      = addf (F := Ideal) (φ := .f32) (agg128 (W (Proc.devRef .tc main_v5)) (W (Proc.devRef .tc main_v6)) (W (Proc.devRef .tc main_v29)) (dot128 (W (Proc.devRef .tc main_v48)) (tr128 (W (Proc.devRef .tc main_arg3))))) (bias128 (W (Proc.devRef .tc main_arg4))) := by
  after_results_simp <;> rfl

/-- The second rectifier. -/
theorem r2_v67 (W : Valuation τ sig (Elt Ideal)) :
    StableHlo.after (segR2 (F := Ideal)) W (Proc.devRef .tc main_v67)
      = maximumf (F := Ideal) (φ := .f32) (W (Proc.devRef .tc main_v66)) zeros128 := by
  after_results_simp <;> rfl

set_option maxHeartbeats 4000000 in
/-- The third layer. -/
theorem e_v85 (W : Valuation τ sig (Elt Ideal)) :
    StableHlo.after (segE (F := Ideal)) W (Proc.devRef .tc main_v85)
      = addf (F := Ideal) (φ := .f32) (agg64 (W (Proc.devRef .tc main_v5)) (W (Proc.devRef .tc main_v6)) (W (Proc.devRef .tc main_v29)) (dot64 (W (Proc.devRef .tc main_v67)) (tr64 (W (Proc.devRef .tc main_arg5))))) (bias64 (W (Proc.devRef .tc main_arg6))) := by
  after_results_simp <;> rfl

/-! ### What a piece does not write it keeps -/

theorem keepA_arg0 (W : Valuation τ sig (Elt Ideal)) : StableHlo.after (segA (F := Ideal)) W (Proc.devRef .tc main_arg0) = W (Proc.devRef .tc main_arg0) := by
  after_results <;> rfl
theorem keepA_arg1 (W : Valuation τ sig (Elt Ideal)) : StableHlo.after (segA (F := Ideal)) W (Proc.devRef .tc main_arg1) = W (Proc.devRef .tc main_arg1) := by
  after_results <;> rfl
theorem keepA_arg2 (W : Valuation τ sig (Elt Ideal)) : StableHlo.after (segA (F := Ideal)) W (Proc.devRef .tc main_arg2) = W (Proc.devRef .tc main_arg2) := by
  after_results <;> rfl
theorem keepA_arg3 (W : Valuation τ sig (Elt Ideal)) : StableHlo.after (segA (F := Ideal)) W (Proc.devRef .tc main_arg3) = W (Proc.devRef .tc main_arg3) := by
  after_results <;> rfl
theorem keepA_arg4 (W : Valuation τ sig (Elt Ideal)) : StableHlo.after (segA (F := Ideal)) W (Proc.devRef .tc main_arg4) = W (Proc.devRef .tc main_arg4) := by
  after_results <;> rfl
theorem keepA_arg5 (W : Valuation τ sig (Elt Ideal)) : StableHlo.after (segA (F := Ideal)) W (Proc.devRef .tc main_arg5) = W (Proc.devRef .tc main_arg5) := by
  after_results <;> rfl
theorem keepA_arg6 (W : Valuation τ sig (Elt Ideal)) : StableHlo.after (segA (F := Ideal)) W (Proc.devRef .tc main_arg6) = W (Proc.devRef .tc main_arg6) := by
  after_results <;> rfl
theorem keepWh_v5 (W : Valuation τ sig (Elt Ideal)) : StableHlo.after (segWh (F := Ideal)) W (Proc.devRef .tc main_v5) = W (Proc.devRef .tc main_v5) := by
  after_results <;> rfl
theorem keepWh_v6 (W : Valuation τ sig (Elt Ideal)) : StableHlo.after (segWh (F := Ideal)) W (Proc.devRef .tc main_v6) = W (Proc.devRef .tc main_v6) := by
  after_results <;> rfl
theorem keepWh_arg0 (W : Valuation τ sig (Elt Ideal)) : StableHlo.after (segWh (F := Ideal)) W (Proc.devRef .tc main_arg0) = W (Proc.devRef .tc main_arg0) := by
  after_results <;> rfl
theorem keepWh_arg1 (W : Valuation τ sig (Elt Ideal)) : StableHlo.after (segWh (F := Ideal)) W (Proc.devRef .tc main_arg1) = W (Proc.devRef .tc main_arg1) := by
  after_results <;> rfl
theorem keepWh_arg2 (W : Valuation τ sig (Elt Ideal)) : StableHlo.after (segWh (F := Ideal)) W (Proc.devRef .tc main_arg2) = W (Proc.devRef .tc main_arg2) := by
  after_results <;> rfl
theorem keepWh_arg3 (W : Valuation τ sig (Elt Ideal)) : StableHlo.after (segWh (F := Ideal)) W (Proc.devRef .tc main_arg3) = W (Proc.devRef .tc main_arg3) := by
  after_results <;> rfl
theorem keepWh_arg4 (W : Valuation τ sig (Elt Ideal)) : StableHlo.after (segWh (F := Ideal)) W (Proc.devRef .tc main_arg4) = W (Proc.devRef .tc main_arg4) := by
  after_results <;> rfl
theorem keepWh_arg5 (W : Valuation τ sig (Elt Ideal)) : StableHlo.after (segWh (F := Ideal)) W (Proc.devRef .tc main_arg5) = W (Proc.devRef .tc main_arg5) := by
  after_results <;> rfl
theorem keepWh_arg6 (W : Valuation τ sig (Elt Ideal)) : StableHlo.after (segWh (F := Ideal)) W (Proc.devRef .tc main_arg6) = W (Proc.devRef .tc main_arg6) := by
  after_results <;> rfl
theorem keepC_v5 (W : Valuation τ sig (Elt Ideal)) : StableHlo.after (segC (F := Ideal)) W (Proc.devRef .tc main_v5) = W (Proc.devRef .tc main_v5) := by
  after_results <;> rfl
theorem keepC_v6 (W : Valuation τ sig (Elt Ideal)) : StableHlo.after (segC (F := Ideal)) W (Proc.devRef .tc main_v6) = W (Proc.devRef .tc main_v6) := by
  after_results <;> rfl
theorem keepC_arg3 (W : Valuation τ sig (Elt Ideal)) : StableHlo.after (segC (F := Ideal)) W (Proc.devRef .tc main_arg3) = W (Proc.devRef .tc main_arg3) := by
  after_results <;> rfl
theorem keepC_arg4 (W : Valuation τ sig (Elt Ideal)) : StableHlo.after (segC (F := Ideal)) W (Proc.devRef .tc main_arg4) = W (Proc.devRef .tc main_arg4) := by
  after_results <;> rfl
theorem keepC_arg5 (W : Valuation τ sig (Elt Ideal)) : StableHlo.after (segC (F := Ideal)) W (Proc.devRef .tc main_arg5) = W (Proc.devRef .tc main_arg5) := by
  after_results <;> rfl
theorem keepC_arg6 (W : Valuation τ sig (Elt Ideal)) : StableHlo.after (segC (F := Ideal)) W (Proc.devRef .tc main_arg6) = W (Proc.devRef .tc main_arg6) := by
  after_results <;> rfl
theorem keepR1_v5 (W : Valuation τ sig (Elt Ideal)) : StableHlo.after (segR1 (F := Ideal)) W (Proc.devRef .tc main_v5) = W (Proc.devRef .tc main_v5) := by
  after_results <;> rfl
theorem keepR1_v6 (W : Valuation τ sig (Elt Ideal)) : StableHlo.after (segR1 (F := Ideal)) W (Proc.devRef .tc main_v6) = W (Proc.devRef .tc main_v6) := by
  after_results <;> rfl
theorem keepR1_v29 (W : Valuation τ sig (Elt Ideal)) : StableHlo.after (segR1 (F := Ideal)) W (Proc.devRef .tc main_v29) = W (Proc.devRef .tc main_v29) := by
  after_results <;> rfl
theorem keepR1_arg3 (W : Valuation τ sig (Elt Ideal)) : StableHlo.after (segR1 (F := Ideal)) W (Proc.devRef .tc main_arg3) = W (Proc.devRef .tc main_arg3) := by
  after_results <;> rfl
theorem keepR1_arg4 (W : Valuation τ sig (Elt Ideal)) : StableHlo.after (segR1 (F := Ideal)) W (Proc.devRef .tc main_arg4) = W (Proc.devRef .tc main_arg4) := by
  after_results <;> rfl
theorem keepR1_arg5 (W : Valuation τ sig (Elt Ideal)) : StableHlo.after (segR1 (F := Ideal)) W (Proc.devRef .tc main_arg5) = W (Proc.devRef .tc main_arg5) := by
  after_results <;> rfl
theorem keepR1_arg6 (W : Valuation τ sig (Elt Ideal)) : StableHlo.after (segR1 (F := Ideal)) W (Proc.devRef .tc main_arg6) = W (Proc.devRef .tc main_arg6) := by
  after_results <;> rfl
theorem keepD_v5 (W : Valuation τ sig (Elt Ideal)) : StableHlo.after (segD (F := Ideal)) W (Proc.devRef .tc main_v5) = W (Proc.devRef .tc main_v5) := by
  after_results <;> rfl
theorem keepD_v6 (W : Valuation τ sig (Elt Ideal)) : StableHlo.after (segD (F := Ideal)) W (Proc.devRef .tc main_v6) = W (Proc.devRef .tc main_v6) := by
  after_results <;> rfl
theorem keepD_v29 (W : Valuation τ sig (Elt Ideal)) : StableHlo.after (segD (F := Ideal)) W (Proc.devRef .tc main_v29) = W (Proc.devRef .tc main_v29) := by
  after_results <;> rfl
theorem keepD_arg5 (W : Valuation τ sig (Elt Ideal)) : StableHlo.after (segD (F := Ideal)) W (Proc.devRef .tc main_arg5) = W (Proc.devRef .tc main_arg5) := by
  after_results <;> rfl
theorem keepD_arg6 (W : Valuation τ sig (Elt Ideal)) : StableHlo.after (segD (F := Ideal)) W (Proc.devRef .tc main_arg6) = W (Proc.devRef .tc main_arg6) := by
  after_results <;> rfl
theorem keepR2_v5 (W : Valuation τ sig (Elt Ideal)) : StableHlo.after (segR2 (F := Ideal)) W (Proc.devRef .tc main_v5) = W (Proc.devRef .tc main_v5) := by
  after_results <;> rfl
theorem keepR2_v6 (W : Valuation τ sig (Elt Ideal)) : StableHlo.after (segR2 (F := Ideal)) W (Proc.devRef .tc main_v6) = W (Proc.devRef .tc main_v6) := by
  after_results <;> rfl
theorem keepR2_v29 (W : Valuation τ sig (Elt Ideal)) : StableHlo.after (segR2 (F := Ideal)) W (Proc.devRef .tc main_v29) = W (Proc.devRef .tc main_v29) := by
  after_results <;> rfl
theorem keepR2_arg5 (W : Valuation τ sig (Elt Ideal)) : StableHlo.after (segR2 (F := Ideal)) W (Proc.devRef .tc main_arg5) = W (Proc.devRef .tc main_arg5) := by
  after_results <;> rfl
theorem keepR2_arg6 (W : Valuation τ sig (Elt Ideal)) : StableHlo.after (segR2 (F := Ideal)) W (Proc.devRef .tc main_arg6) = W (Proc.devRef .tc main_arg6) := by
  after_results <;> rfl

/-! ## From piece to piece -/

theorem u1_v5 (W : Valuation τ sig (Elt Ideal)) : (StableHlo.after (segA (F := Ideal)) W) (Proc.devRef .tc main_v5) = (srcOf (W (Proc.devRef .tc main_arg7))) := a_v5 W
theorem u1_v6 (W : Valuation τ sig (Elt Ideal)) : (StableHlo.after (segA (F := Ideal)) W) (Proc.devRef .tc main_v6) = (dstOf (W (Proc.devRef .tc main_arg7))) := a_v6 W
theorem u1_arg0 (W : Valuation τ sig (Elt Ideal)) : (StableHlo.after (segA (F := Ideal)) W) (Proc.devRef .tc main_arg0) = (W (Proc.devRef .tc main_arg0)) :=
  (keepA_arg0 W).trans rfl
theorem u1_arg1 (W : Valuation τ sig (Elt Ideal)) : (StableHlo.after (segA (F := Ideal)) W) (Proc.devRef .tc main_arg1) = (W (Proc.devRef .tc main_arg1)) :=
  (keepA_arg1 W).trans rfl
theorem u1_arg2 (W : Valuation τ sig (Elt Ideal)) : (StableHlo.after (segA (F := Ideal)) W) (Proc.devRef .tc main_arg2) = (W (Proc.devRef .tc main_arg2)) :=
  (keepA_arg2 W).trans rfl
theorem u1_arg3 (W : Valuation τ sig (Elt Ideal)) : (StableHlo.after (segA (F := Ideal)) W) (Proc.devRef .tc main_arg3) = (W (Proc.devRef .tc main_arg3)) :=
  (keepA_arg3 W).trans rfl
theorem u1_arg4 (W : Valuation τ sig (Elt Ideal)) : (StableHlo.after (segA (F := Ideal)) W) (Proc.devRef .tc main_arg4) = (W (Proc.devRef .tc main_arg4)) :=
  (keepA_arg4 W).trans rfl
theorem u1_arg5 (W : Valuation τ sig (Elt Ideal)) : (StableHlo.after (segA (F := Ideal)) W) (Proc.devRef .tc main_arg5) = (W (Proc.devRef .tc main_arg5)) :=
  (keepA_arg5 W).trans rfl
theorem u1_arg6 (W : Valuation τ sig (Elt Ideal)) : (StableHlo.after (segA (F := Ideal)) W) (Proc.devRef .tc main_arg6) = (W (Proc.devRef .tc main_arg6)) :=
  (keepA_arg6 W).trans rfl
theorem u2_v5 (W : Valuation τ sig (Elt Ideal)) : (StableHlo.after (segWh (F := Ideal)) (StableHlo.after (segA (F := Ideal)) W)) (Proc.devRef .tc main_v5) = (srcOf (W (Proc.devRef .tc main_arg7))) :=
  (keepWh_v5 (StableHlo.after (segA (F := Ideal)) W)).trans (u1_v5 W)
theorem u2_v6 (W : Valuation τ sig (Elt Ideal)) : (StableHlo.after (segWh (F := Ideal)) (StableHlo.after (segA (F := Ideal)) W)) (Proc.devRef .tc main_v6) = (dstOf (W (Proc.devRef .tc main_arg7))) :=
  (keepWh_v6 (StableHlo.after (segA (F := Ideal)) W)).trans (u1_v6 W)
theorem u2_arg0 (W : Valuation τ sig (Elt Ideal)) : (StableHlo.after (segWh (F := Ideal)) (StableHlo.after (segA (F := Ideal)) W)) (Proc.devRef .tc main_arg0) = (W (Proc.devRef .tc main_arg0)) :=
  (keepWh_arg0 (StableHlo.after (segA (F := Ideal)) W)).trans (u1_arg0 W)
theorem u2_arg1 (W : Valuation τ sig (Elt Ideal)) : (StableHlo.after (segWh (F := Ideal)) (StableHlo.after (segA (F := Ideal)) W)) (Proc.devRef .tc main_arg1) = (W (Proc.devRef .tc main_arg1)) :=
  (keepWh_arg1 (StableHlo.after (segA (F := Ideal)) W)).trans (u1_arg1 W)
theorem u2_arg2 (W : Valuation τ sig (Elt Ideal)) : (StableHlo.after (segWh (F := Ideal)) (StableHlo.after (segA (F := Ideal)) W)) (Proc.devRef .tc main_arg2) = (W (Proc.devRef .tc main_arg2)) :=
  (keepWh_arg2 (StableHlo.after (segA (F := Ideal)) W)).trans (u1_arg2 W)
theorem u2_arg3 (W : Valuation τ sig (Elt Ideal)) : (StableHlo.after (segWh (F := Ideal)) (StableHlo.after (segA (F := Ideal)) W)) (Proc.devRef .tc main_arg3) = (W (Proc.devRef .tc main_arg3)) :=
  (keepWh_arg3 (StableHlo.after (segA (F := Ideal)) W)).trans (u1_arg3 W)
theorem u2_arg4 (W : Valuation τ sig (Elt Ideal)) : (StableHlo.after (segWh (F := Ideal)) (StableHlo.after (segA (F := Ideal)) W)) (Proc.devRef .tc main_arg4) = (W (Proc.devRef .tc main_arg4)) :=
  (keepWh_arg4 (StableHlo.after (segA (F := Ideal)) W)).trans (u1_arg4 W)
theorem u2_arg5 (W : Valuation τ sig (Elt Ideal)) : (StableHlo.after (segWh (F := Ideal)) (StableHlo.after (segA (F := Ideal)) W)) (Proc.devRef .tc main_arg5) = (W (Proc.devRef .tc main_arg5)) :=
  (keepWh_arg5 (StableHlo.after (segA (F := Ideal)) W)).trans (u1_arg5 W)
theorem u2_arg6 (W : Valuation τ sig (Elt Ideal)) : (StableHlo.after (segWh (F := Ideal)) (StableHlo.after (segA (F := Ideal)) W)) (Proc.devRef .tc main_arg6) = (W (Proc.devRef .tc main_arg6)) :=
  (keepWh_arg6 (StableHlo.after (segA (F := Ideal)) W)).trans (u1_arg6 W)

theorem u2_v14 (W : Valuation τ sig (Elt Ideal)) : (StableHlo.after (segWh (F := Ideal)) (StableHlo.after (segA (F := Ideal)) W)) (Proc.devRef .tc main_v14) = (dinvOf (dstOf (W (Proc.devRef .tc main_arg7)))) := by
  rw [w_v14, a_v12, a_v13, a_cst2]
  rfl

theorem u3_v29 (W : Valuation τ sig (Elt Ideal)) : (StableHlo.after (segC (F := Ideal)) (StableHlo.after (segWh (F := Ideal)) (StableHlo.after (segA (F := Ideal)) W))) (Proc.devRef .tc main_v29) = (normOf (srcOf (W (Proc.devRef .tc main_arg7))) (dstOf (W (Proc.devRef .tc main_arg7)))) := by
  rw [c_v29, u2_v14, u2_v5, u2_v6]
  rfl

theorem u3_v47 (W : Valuation τ sig (Elt Ideal)) : (StableHlo.after (segC (F := Ideal)) (StableHlo.after (segWh (F := Ideal)) (StableHlo.after (segA (F := Ideal)) W))) (Proc.devRef .tc main_v47) = (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (W (Proc.devRef .tc main_arg0)) (tr128 (W (Proc.devRef .tc main_arg1))))) (bias128 (W (Proc.devRef .tc main_arg2)))) := by
  rw [c_v47, u2_v14, u2_v5, u2_v6, u2_arg0, u2_arg1, u2_arg2]
  rfl

theorem u3_v5 (W : Valuation τ sig (Elt Ideal)) : (StableHlo.after (segC (F := Ideal)) (StableHlo.after (segWh (F := Ideal)) (StableHlo.after (segA (F := Ideal)) W))) (Proc.devRef .tc main_v5) = (srcOf (W (Proc.devRef .tc main_arg7))) :=
  (keepC_v5 (StableHlo.after (segWh (F := Ideal)) (StableHlo.after (segA (F := Ideal)) W))).trans (u2_v5 W)
theorem u3_v6 (W : Valuation τ sig (Elt Ideal)) : (StableHlo.after (segC (F := Ideal)) (StableHlo.after (segWh (F := Ideal)) (StableHlo.after (segA (F := Ideal)) W))) (Proc.devRef .tc main_v6) = (dstOf (W (Proc.devRef .tc main_arg7))) :=
  (keepC_v6 (StableHlo.after (segWh (F := Ideal)) (StableHlo.after (segA (F := Ideal)) W))).trans (u2_v6 W)
theorem u3_arg3 (W : Valuation τ sig (Elt Ideal)) : (StableHlo.after (segC (F := Ideal)) (StableHlo.after (segWh (F := Ideal)) (StableHlo.after (segA (F := Ideal)) W))) (Proc.devRef .tc main_arg3) = (W (Proc.devRef .tc main_arg3)) :=
  (keepC_arg3 (StableHlo.after (segWh (F := Ideal)) (StableHlo.after (segA (F := Ideal)) W))).trans (u2_arg3 W)
theorem u3_arg4 (W : Valuation τ sig (Elt Ideal)) : (StableHlo.after (segC (F := Ideal)) (StableHlo.after (segWh (F := Ideal)) (StableHlo.after (segA (F := Ideal)) W))) (Proc.devRef .tc main_arg4) = (W (Proc.devRef .tc main_arg4)) :=
  (keepC_arg4 (StableHlo.after (segWh (F := Ideal)) (StableHlo.after (segA (F := Ideal)) W))).trans (u2_arg4 W)
theorem u3_arg5 (W : Valuation τ sig (Elt Ideal)) : (StableHlo.after (segC (F := Ideal)) (StableHlo.after (segWh (F := Ideal)) (StableHlo.after (segA (F := Ideal)) W))) (Proc.devRef .tc main_arg5) = (W (Proc.devRef .tc main_arg5)) :=
  (keepC_arg5 (StableHlo.after (segWh (F := Ideal)) (StableHlo.after (segA (F := Ideal)) W))).trans (u2_arg5 W)
theorem u3_arg6 (W : Valuation τ sig (Elt Ideal)) : (StableHlo.after (segC (F := Ideal)) (StableHlo.after (segWh (F := Ideal)) (StableHlo.after (segA (F := Ideal)) W))) (Proc.devRef .tc main_arg6) = (W (Proc.devRef .tc main_arg6)) :=
  (keepC_arg6 (StableHlo.after (segWh (F := Ideal)) (StableHlo.after (segA (F := Ideal)) W))).trans (u2_arg6 W)

theorem u4_v48 (W : Valuation τ sig (Elt Ideal)) : (StableHlo.after (segR1 (F := Ideal)) (StableHlo.after (segC (F := Ideal)) (StableHlo.after (segWh (F := Ideal)) (StableHlo.after (segA (F := Ideal)) W)))) (Proc.devRef .tc main_v48) = (maximumf (F := Ideal) (φ := .f32) (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (W (Proc.devRef .tc main_arg0)) (tr128 (W (Proc.devRef .tc main_arg1))))) (bias128 (W (Proc.devRef .tc main_arg2)))) zeros128) := by
  rw [r1_v48, u3_v47]

theorem u4_v5 (W : Valuation τ sig (Elt Ideal)) : (StableHlo.after (segR1 (F := Ideal)) (StableHlo.after (segC (F := Ideal)) (StableHlo.after (segWh (F := Ideal)) (StableHlo.after (segA (F := Ideal)) W)))) (Proc.devRef .tc main_v5) = (srcOf (W (Proc.devRef .tc main_arg7))) :=
  (keepR1_v5 (StableHlo.after (segC (F := Ideal)) (StableHlo.after (segWh (F := Ideal)) (StableHlo.after (segA (F := Ideal)) W)))).trans (u3_v5 W)
theorem u4_v6 (W : Valuation τ sig (Elt Ideal)) : (StableHlo.after (segR1 (F := Ideal)) (StableHlo.after (segC (F := Ideal)) (StableHlo.after (segWh (F := Ideal)) (StableHlo.after (segA (F := Ideal)) W)))) (Proc.devRef .tc main_v6) = (dstOf (W (Proc.devRef .tc main_arg7))) :=
  (keepR1_v6 (StableHlo.after (segC (F := Ideal)) (StableHlo.after (segWh (F := Ideal)) (StableHlo.after (segA (F := Ideal)) W)))).trans (u3_v6 W)
theorem u4_v29 (W : Valuation τ sig (Elt Ideal)) : (StableHlo.after (segR1 (F := Ideal)) (StableHlo.after (segC (F := Ideal)) (StableHlo.after (segWh (F := Ideal)) (StableHlo.after (segA (F := Ideal)) W)))) (Proc.devRef .tc main_v29) = (normOf (srcOf (W (Proc.devRef .tc main_arg7))) (dstOf (W (Proc.devRef .tc main_arg7)))) :=
  (keepR1_v29 (StableHlo.after (segC (F := Ideal)) (StableHlo.after (segWh (F := Ideal)) (StableHlo.after (segA (F := Ideal)) W)))).trans (u3_v29 W)
theorem u4_arg3 (W : Valuation τ sig (Elt Ideal)) : (StableHlo.after (segR1 (F := Ideal)) (StableHlo.after (segC (F := Ideal)) (StableHlo.after (segWh (F := Ideal)) (StableHlo.after (segA (F := Ideal)) W)))) (Proc.devRef .tc main_arg3) = (W (Proc.devRef .tc main_arg3)) :=
  (keepR1_arg3 (StableHlo.after (segC (F := Ideal)) (StableHlo.after (segWh (F := Ideal)) (StableHlo.after (segA (F := Ideal)) W)))).trans (u3_arg3 W)
theorem u4_arg4 (W : Valuation τ sig (Elt Ideal)) : (StableHlo.after (segR1 (F := Ideal)) (StableHlo.after (segC (F := Ideal)) (StableHlo.after (segWh (F := Ideal)) (StableHlo.after (segA (F := Ideal)) W)))) (Proc.devRef .tc main_arg4) = (W (Proc.devRef .tc main_arg4)) :=
  (keepR1_arg4 (StableHlo.after (segC (F := Ideal)) (StableHlo.after (segWh (F := Ideal)) (StableHlo.after (segA (F := Ideal)) W)))).trans (u3_arg4 W)
theorem u4_arg5 (W : Valuation τ sig (Elt Ideal)) : (StableHlo.after (segR1 (F := Ideal)) (StableHlo.after (segC (F := Ideal)) (StableHlo.after (segWh (F := Ideal)) (StableHlo.after (segA (F := Ideal)) W)))) (Proc.devRef .tc main_arg5) = (W (Proc.devRef .tc main_arg5)) :=
  (keepR1_arg5 (StableHlo.after (segC (F := Ideal)) (StableHlo.after (segWh (F := Ideal)) (StableHlo.after (segA (F := Ideal)) W)))).trans (u3_arg5 W)
theorem u4_arg6 (W : Valuation τ sig (Elt Ideal)) : (StableHlo.after (segR1 (F := Ideal)) (StableHlo.after (segC (F := Ideal)) (StableHlo.after (segWh (F := Ideal)) (StableHlo.after (segA (F := Ideal)) W)))) (Proc.devRef .tc main_arg6) = (W (Proc.devRef .tc main_arg6)) :=
  (keepR1_arg6 (StableHlo.after (segC (F := Ideal)) (StableHlo.after (segWh (F := Ideal)) (StableHlo.after (segA (F := Ideal)) W)))).trans (u3_arg6 W)

theorem u5_v66 (W : Valuation τ sig (Elt Ideal)) : (StableHlo.after (segD (F := Ideal)) (StableHlo.after (segR1 (F := Ideal)) (StableHlo.after (segC (F := Ideal)) (StableHlo.after (segWh (F := Ideal)) (StableHlo.after (segA (F := Ideal)) W))))) (Proc.devRef .tc main_v66) = (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (maximumf (F := Ideal) (φ := .f32) (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (W (Proc.devRef .tc main_arg0)) (tr128 (W (Proc.devRef .tc main_arg1))))) (bias128 (W (Proc.devRef .tc main_arg2)))) zeros128) (tr128 (W (Proc.devRef .tc main_arg3))))) (bias128 (W (Proc.devRef .tc main_arg4)))) := by
  rw [d_v66, u4_v5, u4_v6, u4_v29, u4_v48, u4_arg3, u4_arg4]

theorem u5_v5 (W : Valuation τ sig (Elt Ideal)) : (StableHlo.after (segD (F := Ideal)) (StableHlo.after (segR1 (F := Ideal)) (StableHlo.after (segC (F := Ideal)) (StableHlo.after (segWh (F := Ideal)) (StableHlo.after (segA (F := Ideal)) W))))) (Proc.devRef .tc main_v5) = (srcOf (W (Proc.devRef .tc main_arg7))) :=
  (keepD_v5 (StableHlo.after (segR1 (F := Ideal)) (StableHlo.after (segC (F := Ideal)) (StableHlo.after (segWh (F := Ideal)) (StableHlo.after (segA (F := Ideal)) W))))).trans (u4_v5 W)
theorem u5_v6 (W : Valuation τ sig (Elt Ideal)) : (StableHlo.after (segD (F := Ideal)) (StableHlo.after (segR1 (F := Ideal)) (StableHlo.after (segC (F := Ideal)) (StableHlo.after (segWh (F := Ideal)) (StableHlo.after (segA (F := Ideal)) W))))) (Proc.devRef .tc main_v6) = (dstOf (W (Proc.devRef .tc main_arg7))) :=
  (keepD_v6 (StableHlo.after (segR1 (F := Ideal)) (StableHlo.after (segC (F := Ideal)) (StableHlo.after (segWh (F := Ideal)) (StableHlo.after (segA (F := Ideal)) W))))).trans (u4_v6 W)
theorem u5_v29 (W : Valuation τ sig (Elt Ideal)) : (StableHlo.after (segD (F := Ideal)) (StableHlo.after (segR1 (F := Ideal)) (StableHlo.after (segC (F := Ideal)) (StableHlo.after (segWh (F := Ideal)) (StableHlo.after (segA (F := Ideal)) W))))) (Proc.devRef .tc main_v29) = (normOf (srcOf (W (Proc.devRef .tc main_arg7))) (dstOf (W (Proc.devRef .tc main_arg7)))) :=
  (keepD_v29 (StableHlo.after (segR1 (F := Ideal)) (StableHlo.after (segC (F := Ideal)) (StableHlo.after (segWh (F := Ideal)) (StableHlo.after (segA (F := Ideal)) W))))).trans (u4_v29 W)
theorem u5_arg5 (W : Valuation τ sig (Elt Ideal)) : (StableHlo.after (segD (F := Ideal)) (StableHlo.after (segR1 (F := Ideal)) (StableHlo.after (segC (F := Ideal)) (StableHlo.after (segWh (F := Ideal)) (StableHlo.after (segA (F := Ideal)) W))))) (Proc.devRef .tc main_arg5) = (W (Proc.devRef .tc main_arg5)) :=
  (keepD_arg5 (StableHlo.after (segR1 (F := Ideal)) (StableHlo.after (segC (F := Ideal)) (StableHlo.after (segWh (F := Ideal)) (StableHlo.after (segA (F := Ideal)) W))))).trans (u4_arg5 W)
theorem u5_arg6 (W : Valuation τ sig (Elt Ideal)) : (StableHlo.after (segD (F := Ideal)) (StableHlo.after (segR1 (F := Ideal)) (StableHlo.after (segC (F := Ideal)) (StableHlo.after (segWh (F := Ideal)) (StableHlo.after (segA (F := Ideal)) W))))) (Proc.devRef .tc main_arg6) = (W (Proc.devRef .tc main_arg6)) :=
  (keepD_arg6 (StableHlo.after (segR1 (F := Ideal)) (StableHlo.after (segC (F := Ideal)) (StableHlo.after (segWh (F := Ideal)) (StableHlo.after (segA (F := Ideal)) W))))).trans (u4_arg6 W)

theorem u6_v67 (W : Valuation τ sig (Elt Ideal)) : (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W)))))) (Proc.devRef .tc main_v67) = (maximumf (F := Ideal) (φ := .f32) (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (maximumf (F := Ideal) (φ := .f32) (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (W (Proc.devRef .tc main_arg0)) (tr128 (W (Proc.devRef .tc main_arg1))))) (bias128 (W (Proc.devRef .tc main_arg2)))) zeros128) (tr128 (W (Proc.devRef .tc main_arg3))))) (bias128 (W (Proc.devRef .tc main_arg4)))) zeros128) := by
  rw [r2_v67, u5_v66]

theorem u6_v5 (W : Valuation τ sig (Elt Ideal)) : (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W)))))) (Proc.devRef .tc main_v5) = (srcOf (W (Proc.devRef .tc main_arg7))) :=
  (keepR2_v5 (StableHlo.after (segD (F := Ideal)) (StableHlo.after (segR1 (F := Ideal)) (StableHlo.after (segC (F := Ideal)) (StableHlo.after (segWh (F := Ideal)) (StableHlo.after (segA (F := Ideal)) W)))))).trans (u5_v5 W)
theorem u6_v6 (W : Valuation τ sig (Elt Ideal)) : (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W)))))) (Proc.devRef .tc main_v6) = (dstOf (W (Proc.devRef .tc main_arg7))) :=
  (keepR2_v6 (StableHlo.after (segD (F := Ideal)) (StableHlo.after (segR1 (F := Ideal)) (StableHlo.after (segC (F := Ideal)) (StableHlo.after (segWh (F := Ideal)) (StableHlo.after (segA (F := Ideal)) W)))))).trans (u5_v6 W)
theorem u6_v29 (W : Valuation τ sig (Elt Ideal)) : (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W)))))) (Proc.devRef .tc main_v29) = (normOf (srcOf (W (Proc.devRef .tc main_arg7))) (dstOf (W (Proc.devRef .tc main_arg7)))) :=
  (keepR2_v29 (StableHlo.after (segD (F := Ideal)) (StableHlo.after (segR1 (F := Ideal)) (StableHlo.after (segC (F := Ideal)) (StableHlo.after (segWh (F := Ideal)) (StableHlo.after (segA (F := Ideal)) W)))))).trans (u5_v29 W)
theorem u6_arg5 (W : Valuation τ sig (Elt Ideal)) : (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W)))))) (Proc.devRef .tc main_arg5) = (W (Proc.devRef .tc main_arg5)) :=
  (keepR2_arg5 (StableHlo.after (segD (F := Ideal)) (StableHlo.after (segR1 (F := Ideal)) (StableHlo.after (segC (F := Ideal)) (StableHlo.after (segWh (F := Ideal)) (StableHlo.after (segA (F := Ideal)) W)))))).trans (u5_arg5 W)
theorem u6_arg6 (W : Valuation τ sig (Elt Ideal)) : (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W)))))) (Proc.devRef .tc main_arg6) = (W (Proc.devRef .tc main_arg6)) :=
  (keepR2_arg6 (StableHlo.after (segD (F := Ideal)) (StableHlo.after (segR1 (F := Ideal)) (StableHlo.after (segC (F := Ideal)) (StableHlo.after (segWh (F := Ideal)) (StableHlo.after (segA (F := Ideal)) W)))))).trans (u5_arg6 W)

theorem u7_v85 (W : Valuation τ sig (Elt Ideal)) : (StableHlo.after (segE (F := Ideal)) (StableHlo.after (segR2 (F := Ideal)) (StableHlo.after (segD (F := Ideal)) (StableHlo.after (segR1 (F := Ideal)) (StableHlo.after (segC (F := Ideal)) (StableHlo.after (segWh (F := Ideal)) (StableHlo.after (segA (F := Ideal)) W))))))) (Proc.devRef .tc main_v85) = (addf (F := Ideal) (φ := .f32) (agg64 (srcOf (W (Proc.devRef .tc main_arg7))) (dstOf (W (Proc.devRef .tc main_arg7))) (normOf (srcOf (W (Proc.devRef .tc main_arg7))) (dstOf (W (Proc.devRef .tc main_arg7)))) (dot64 (maximumf (F := Ideal) (φ := .f32) (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (maximumf (F := Ideal) (φ := .f32) (addf (F := Ideal) (φ := .f32) (agg128 (srcOf (W (Proc.devRef .tc main_arg7))) (dstOf (W (Proc.devRef .tc main_arg7))) (normOf (srcOf (W (Proc.devRef .tc main_arg7))) (dstOf (W (Proc.devRef .tc main_arg7)))) (dot128 (W (Proc.devRef .tc main_arg0)) (tr128 (W (Proc.devRef .tc main_arg1))))) (bias128 (W (Proc.devRef .tc main_arg2)))) zeros128) (tr128 (W (Proc.devRef .tc main_arg3))))) (bias128 (W (Proc.devRef .tc main_arg4)))) zeros128) (tr64 (W (Proc.devRef .tc main_arg5))))) (bias64 (W (Proc.devRef .tc main_arg6)))) := by
  rw [e_v85, u6_v5, u6_v6, u6_v29, u6_v67, u6_arg5, u6_arg6]

/-- The fold of the program's operations, read at the result buffer, is the host program's term of the launch
    contents of the arguments. -/
theorem fold_result (W : Valuation τ sig (Elt Ideal)) :
    StableHlo.after (ops (F := Ideal)) W (Proc.devRef .tc main_v85)
      = hostTerm (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_eq, after_append, after_append, after_append, after_append, after_append, after_append]
  exact u7_v85 W

/-! ## The host's products as the dense maps -/

/-- The left operand's row coordinate is the entry's row. -/
theorem rA_l0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column coordinate is the contracted one. -/
theorem rA_l1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row coordinate is the contracted one. -/
theorem rA_r0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
/-- The right operand's column coordinate is the entry's column. -/
theorem rA_r1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The left operand's row coordinate is the entry's row. -/
theorem rB_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- The left operand's column coordinate is the contracted one. -/
theorem rB_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
/-- The right operand's row coordinate is the contracted one. -/
theorem rB_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
/-- The right operand's column coordinate is the entry's column. -/
theorem rB_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The first product: with a bias row of zeros the affine map IS the product. -/
theorem dot_affine (x : C S100000x128 .f32) (w : C S128x128 .f32) : dot128 x w = Gcn.affine x zeroRow w := by
  funext j
  obtain ⟨p, q, rfl⟩ : ∃ (p : Fin 100000) (q : Fin 128), j = ix2 p q := ⟨j 0, j 1, eq_ix2 j⟩
  unfold dot128
  simp only [Host.dotGeneral]
  rw [Ideal.dotGeneral_apply]
  refine (LayerLaws.sum_inner dot_S100000x128_S128x128_S100000x128_1_0_0_1_n_n rfl rfl rA_l0 rA_l1 rA_r0 rA_r1 x w p q).trans ?_
  rw [Gcn.affine_zero_row x zeroRow w (fun _ => rfl)]

/-- Bias, rectifier, product: the rectified affine map. -/
theorem dot_affineRelu (a : C S100000x128 .f32) (b : C S128 .f32) (w : C S128x128 .f32) :
    dot128 (maximumf (F := Ideal) (φ := .f32) (addf (F := Ideal) (φ := .f32) a (bias128 b)) zeros128) w
      = Gcn.affineRelu a (row128 b) w := by
  funext j
  obtain ⟨p, q, rfl⟩ : ∃ (p : Fin 100000) (q : Fin 128), j = ix2 p q := ⟨j 0, j 1, eq_ix2 j⟩
  unfold dot128
  simp only [Host.dotGeneral]
  rw [Ideal.dotGeneral_apply]
  refine (LayerLaws.sum_inner dot_S100000x128_S128x128_S100000x128_1_0_0_1_n_n rfl rfl rA_l0 rA_l1 rA_r0 rA_r1 _ w p q).trans ?_
  rw [Gcn.affineRelu_apply]
  refine Finset.sum_congr rfl fun k _ => ?_
  rw [maximumf_apply, addf_apply]
  unfold bias128 zeros128
  rw [Gcn.bcast_rows128, Gcn.bcast_zero_apply]
  rfl

/-- The same into 64 columns. -/
theorem dot_affineRelu64 (a : C S100000x128 .f32) (b : C S128 .f32) (w : C S128x64 .f32) :
    dot64 (maximumf (F := Ideal) (φ := .f32) (addf (F := Ideal) (φ := .f32) a (bias128 b)) zeros128) w
      = Gcn.affineRelu a (row128 b) w := by
  funext j
  obtain ⟨p, q, rfl⟩ : ∃ (p : Fin 100000) (q : Fin 64), j = ix2 p q := ⟨j 0, j 1, eq_ix2 j⟩
  unfold dot64
  simp only [Host.dotGeneral]
  rw [Ideal.dotGeneral_apply]
  refine (LayerLaws.sum_inner dot_S100000x128_S128x64_S100000x64_1_0_0_1_n_n rfl rfl rB_l0 rB_l1 rB_r0 rB_r1 _ w p q).trans ?_
  rw [Gcn.affineRelu_apply]
  refine Finset.sum_congr rfl fun k _ => ?_
  rw [maximumf_apply, addf_apply]
  unfold bias128 zeros128
  rw [Gcn.bcast_rows128, Gcn.bcast_zero_apply]
  rfl

/-- The last bias. -/
theorem add_addRow (a : C S100000x64 .f32) (b : C S64 .f32) :
    addf (F := Ideal) (φ := .f32) a (bias64 b) = Gcn.addRow a (row64 b) := by
  funext j
  obtain ⟨p, q, rfl⟩ : ∃ (p : Fin 100000) (q : Fin 64), j = ix2 p q := ⟨j 0, j 1, eq_ix2 j⟩
  rw [addf_apply, Gcn.addRow_apply]
  unfold bias64
  rw [Gcn.bcast_rows64]
  rfl

/-- The host program's term is the network. -/
theorem hostTerm_eq (x : C S100000x128 .f32) (w1 : C S128x128 .f32) (b1 : C S128 .f32) (w2 : C S128x128 .f32) (b2 : C S128 .f32)
    (w3 : C S64x128 .f32) (b3 : C S64 .f32) (e : C S2x1600000 .i32) :
    hostTerm x w1 b1 w2 b2 w3 b3 e = network x w1 b1 w2 b2 w3 b3 e := by
  unfold hostTerm network
  rw [dot_affineRelu64, dot_affineRelu, dot_affine, add_addRow]

/-! ## The run -/

set_option maxHeartbeats 40000000 in
/-- The fold keeps each argument. -/
theorem fold_arg (W : Valuation τ sig (Elt Ideal)) :
    StableHlo.after (ops (F := Ideal)) W (Proc.devRef .tc main_arg0) = W (Proc.devRef .tc main_arg0)
    ∧ StableHlo.after (ops (F := Ideal)) W (Proc.devRef .tc main_arg1) = W (Proc.devRef .tc main_arg1)
    ∧ StableHlo.after (ops (F := Ideal)) W (Proc.devRef .tc main_arg2) = W (Proc.devRef .tc main_arg2)
    ∧ StableHlo.after (ops (F := Ideal)) W (Proc.devRef .tc main_arg3) = W (Proc.devRef .tc main_arg3)
    ∧ StableHlo.after (ops (F := Ideal)) W (Proc.devRef .tc main_arg4) = W (Proc.devRef .tc main_arg4)
    ∧ StableHlo.after (ops (F := Ideal)) W (Proc.devRef .tc main_arg5) = W (Proc.devRef .tc main_arg5)
    ∧ StableHlo.after (ops (F := Ideal)) W (Proc.devRef .tc main_arg6) = W (Proc.devRef .tc main_arg6)
    ∧ StableHlo.after (ops (F := Ideal)) W (Proc.devRef .tc main_arg7) = W (Proc.devRef .tc main_arg7) :=
  ⟨by after_results_simp <;> rfl, by after_results_simp <;> rfl, by after_results_simp <;> rfl, by after_results_simp <;> rfl,
   by after_results_simp <;> rfl, by after_results_simp <;> rfl, by after_results_simp <;> rfl, by after_results_simp <;> rfl⟩

/-- Every weakly fair execution of the reference program terminates, nothing faulting, with the result buffer at the
    network of the arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85)
          = network (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c main_v85).trans ((fold_result (launchContents m c)).trans (hostTerm_eq _ _ _ _ _ _ _ _)),
     (h c main_arg0).trans (fold_arg (launchContents m c)).1,
     (h c main_arg1).trans (fold_arg (launchContents m c)).2.1,
     (h c main_arg2).trans (fold_arg (launchContents m c)).2.2.1,
     (h c main_arg3).trans (fold_arg (launchContents m c)).2.2.2.1,
     (h c main_arg4).trans (fold_arg (launchContents m c)).2.2.2.2.1,
     (h c main_arg5).trans (fold_arg (launchContents m c)).2.2.2.2.2.1,
     (h c main_arg6).trans (fold_arg (launchContents m c)).2.2.2.2.2.2.1,
     (h c main_arg7).trans (fold_arg (launchContents m c)).2.2.2.2.2.2.2⟩)
    (run_raw m ρ)

end Cert.ReferenceIdeal.RefValue

end
-- ==== Proof.lean ====
/-
  The certificate of a three-layer graph-convolution network: a tiled program against a plain host program.

  Both programs compute, from node features `x`, three weight matrices with their biases and an edge list,
      agg (relu (agg (relu (agg (x·W₁ᵀ) + b₁) · W₂ᵀ) + b₂) · W₃ᵀ) + b₃,
  where `agg` sends every source row, scaled by the edge's weight, along its edge and adds up at the destination, and
  the edge weights come from the inverse square roots of the node degrees.  The host program computes it in this
  order.  The tiled program does the three products and the last bias in four kernel launches over tiles of 10000 rows,
  moves each layer's bias and rectifier into the prologue of the NEXT launch (the first launch gets a bias row of
  zeros), narrows the product's operands to a shorter float format, and leaves the sparse part — gather, scale,
  scatter-add — to the same host operations the reference uses.

  On the extended reals the two are one function (GcnSpec `network`): narrowing a format is the identity; a matrix unit
  into a zero accumulator and the host's `dot_general` are the same sum over the contracted axis; a dense map reads one
  row of its input, so ten tiles of rows make the whole map; a bias added after the aggregate and rectified is the same
  whether it ends one step or begins the next; `a + 0 = a`.  No step distributes a product over a sum or cancels, so
  no entry needs to be finite and the precondition is not opened.  The sparse part is never opened either: both runs
  apply the same operations with the same dimension records to the same index vectors.

  KernelLayers: what each launch leaves (the dense map of what it found).  KernelRun, KernelValue: the tiled program's
  run, boundary by boundary, ends with the result buffer at `network` of the arguments.  RefRun, RefValue: the host
  program's run ends there too.  The three frame claims are the programs' runs with the result forgotten; the
  idealization rewrote no operation, so `preserves` has nothing to state.
-/
import proofs.«173080_j44813688767186_1_alg».proof.Defs
import proofs.«173080_j44813688767186_1_alg».proof.Proof.Gen.Kernel
import proofs.«173080_j44813688767186_1_alg».proof.Proof.Gen.Kernel.Skeleton
import proofs.«173080_j44813688767186_1_alg».proof.Proof.Gen.Kernel.Launch
import proofs.«173080_j44813688767186_1_alg».proof.Proof.Gen.Kernel.Points
import proofs.«173080_j44813688767186_1_alg».proof.Proof.Gen.Kernel.Frame
import proofs.«173080_j44813688767186_1_alg».proof.Proof.Gen.KernelIdeal
import proofs.«173080_j44813688767186_1_alg».proof.Proof.Gen.KernelIdeal.Skeleton
import proofs.«173080_j44813688767186_1_alg».proof.Proof.Gen.KernelIdeal.Launch
import proofs.«173080_j44813688767186_1_alg».proof.Proof.Gen.KernelIdeal.Points
import proofs.«173080_j44813688767186_1_alg».proof.Proof.Gen.KernelIdeal.Frame
import proofs.«173080_j44813688767186_1_alg».proof.Proof.Gen.ReferenceIdeal
import proofs.«173080_j44813688767186_1_alg».proof.Proof.Gen.Pre_finite_inputs
import proofs.«173080_j44813688767186_1_alg».proof.Proof.KernelValue
import proofs.«173080_j44813688767186_1_alg».proof.Proof.RefValue
import Idealize.ShloMosaic.Adequacy
import Idealize.ShloMosaic.Init

noncomputable section

namespace Cert.Proof

open Idealize.ShloMosaic Idealize.ShloMosaic.TcCoe Idealize.SL.Sem

/-- The tiled program as printed runs and keeps its arguments. -/
theorem frame_kernel : Cert.frame_Kernel := fun m ρ _ => Cert.Kernel.Gen.frame m ρ

/-- The idealized tiled program runs and keeps its arguments. -/
theorem frame_kernelIdeal : Cert.frame_KernelIdeal := fun m ρ _ => Cert.KernelIdeal.Gen.frame m ρ

/-- The idealized host program runs and keeps its arguments: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both idealized programs end with the result buffer at the network of the
    arguments. -/
theorem algebraic : Cert.algebraic_KernelIdeal_ReferenceIdeal := by
  intro m ρ m' ρ' _ hagree
  refine ⟨fun c => Cert.ReferenceIdeal.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.ReferenceIdeal.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result m ρ c), (h c).1.trans (Cert.KernelIdeal.Value.result m ρ c), (h c).2⟩)
      (Cert.KernelIdeal.Named.run_named m ρ)
  · refine (θ_run Cert.ReferenceIdeal.defs _ _).mono (fun r h c => ?_) (Cert.ReferenceIdeal.RefValue.run m' ρ')
    obtain ⟨a0, a1, a2, a3, a4, a5, a6, a7⟩ := hagree c
    have e := (h c).1
    rw [a0, a1, a2, a3, a4, a5, a6, a7] at e
    exact ⟨e, e, (h c).2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
